-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x3 : Shape := ⟨2, ![20000, 3]⟩
abbrev S2x640000 : Shape := ⟨2, ![2, 640000]⟩
abbrev S128x257 : Shape := ⟨2, ![128, 257]⟩
abbrev S128 : Shape := ⟨1, ![128]⟩
abbrev S128x128 : Shape := ⟨2, ![128, 128]⟩
abbrev S128x256 : Shape := ⟨2, ![128, 256]⟩
abbrev S1x128 : Shape := ⟨2, ![1, 128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x3 : S_.BroadcastsInDim S20000x3 (![] : Fin 0 → Fin S20000x3.rank)
  reducesTo_S20000x3_S_d0_1 : S20000x3.ReducesTo [0, 1] S_
  bcast_S_S128x257 : S_.BroadcastsInDim S128x257 (![] : Fin 0 → Fin S128x257.rank)
  reducesTo_S128x257_S_d0_1 : S128x257.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_

variable [Facts]

def fn_part3 {F : FTy → Type} [FloatOps F] (main_arg12 : FVec F S128 .f32) (main_arg13 : FVec F S1x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S1x128 .f32 := Host.absf main_arg13
  let main_cst_22 : FVec F S_ .f32 := constant S_ .f32 0x7F800000#32
  let main_v60 : FVec F S1x128 .f32 := broadcastInDim S1x128 ![] bcast_S_S1x128 main_cst_22
  let main_v61 : IVec S1x128 1 := cmpf .olt main_v59 main_v60
  let main_c_23 : IVec S_ 1 := constantI S_ 1 1#1
  let main_v62 : IVec S_ 1 := (fun x v => Host.reduce IntOp.andi x v reducesTo_S1x128_S_d0_1 h_S_) main_v61 main_c_23
  let main_v63 : IVec S_ 1 := andi main_v58 main_v62
  main_v63

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S1x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_v48 main_v49 main_v50

def fn_part1 {F : FTy → Type} [FloatOps F] (main_arg5 : FVec F S128x128 .f32) (main_arg6 : FVec F S128 .f32) (main_arg7 : FVec F S128x256 .f32) (main_arg8 : FVec F S128 .f32) (main_arg9 : FVec F S128x128 .f32) (main_arg10 : FVec F S128 .f32) (main_arg11 : FVec F S128x128 .f32) (main_arg12 : FVec F S128 .f32) (main_arg13 : FVec F S1x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S20000x128 .f32) (main_arg1 : FVec F S20000x3 .f32) (main_arg2 : IVec S2x640000 32) (main_arg3 : FVec F S128x257 .f32) (main_arg4 : FVec F S128 .f32) (main_arg5 : FVec F S128x128 .f32) (main_arg6 : FVec F S128 .f32) (main_arg7 : FVec F S128x256 .f32) (main_arg8 : FVec F S128 .f32) (main_arg9 : FVec F S128x128 .f32) (main_arg10 : FVec F S128 .f32) (main_arg11 : FVec F S128x128 .f32) (main_arg12 : FVec F S128 .f32) (main_arg13 : FVec F S1x128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x3 .f32 := Host.absf main_arg1
  let main_cst_0 : FVec F S_ .f32 := constant S_ .f32 0x7F800000#32
  let main_v5 : FVec F S20000x3 .f32 := broadcastInDim S20000x3 ![] bcast_S_S20000x3 main_cst_0
  let main_v6 : IVec S20000x3 1 := cmpf .olt main_v4 main_v5
  let main_c_1 : IVec S_ 1 := constantI S_ 1 1#1
  let main_v7 : IVec S_ 1 := (fun x v => Host.reduce IntOp.andi x v reducesTo_S20000x3_S_d0_1 h_S_) main_v6 main_c_1
  let main_v8 : IVec S_ 1 := andi main_v3 main_v7
  let main_v9 : FVec F S128x257 .f32 := Host.absf main_arg3
  let main_cst_2 : FVec F S_ .f32 := constant S_ .f32 0x7F800000#32
  let main_v10 : FVec F S128x257 .f32 := broadcastInDim S128x257 ![] bcast_S_S128x257 main_cst_2
  let main_v11 : IVec S128x257 1 := cmpf .olt main_v9 main_v10
  let main_c_3 : IVec S_ 1 := constantI S_ 1 1#1
  let main_v12 : IVec S_ 1 := (fun x v => Host.reduce IntOp.andi x v reducesTo_S128x257_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S20000x128 : Shape := ⟨2, ![20000, 128]⟩
abbrev S20000x3 : Shape := ⟨2, ![20000, 3]⟩
abbrev S2x640000 : Shape := ⟨2, ![2, 640000]⟩
abbrev S128x257 : Shape := ⟨2, ![128, 257]⟩
abbrev S128 : Shape := ⟨1, ![128]⟩
abbrev S128x128 : Shape := ⟨2, ![128, 128]⟩
abbrev S128x256 : Shape := ⟨2, ![128, 256]⟩
abbrev S1x128 : Shape := ⟨2, ![1, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x3 : Shape := ⟨2, ![640000, 3]⟩
abbrev S128x1 : Shape := ⟨2, ![128, 1]⟩
abbrev S4000x128 : Shape := ⟨2, ![4000, 128]⟩
abbrev S4000x3 : Shape := ⟨2, ![4000, 3]⟩
abbrev S4000 : Shape := ⟨1, ![4000]⟩
abbrev S4000x1 : Shape := ⟨2, ![4000, 1]⟩

abbrev nBuf : Space → Nat
  | .hbm => 80
  | .vmem => 30
  | .smem => 0
  | _ => 0

abbrev bufTy : (tb : Table) → Fin (tcTables nBuf tb) → BufTy
  | .hbm, ⟨0, _⟩ => ⟨S20000x128, .f32⟩
  | .hbm, ⟨1, _⟩ => ⟨S20000x3, .f32⟩
  | .hbm, ⟨2, _⟩ => ⟨S2x640000, .i32⟩
  | .hbm, ⟨3, _⟩ => ⟨S128x257, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x128, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S20000x128, .bf16⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .bf16⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x128, .bf16⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000x3, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x3, .f32⟩
  | .hbm, ⟨55, _⟩ => ⟨S640000x3, .f32⟩
  | .hbm, ⟨56, _⟩ => ⟨S128x128, .f32⟩
  | .hbm, ⟨57, _⟩ => ⟨S128x128, .f32⟩
  | .hbm, ⟨58, _⟩ => ⟨S128x1, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S640000x128, .bf16⟩
  | .hbm, ⟨66, _⟩ => ⟨S640000x3, .f32⟩
  | .hbm, ⟨67, _⟩ => ⟨S640000x128, .f32⟩
  | .hbm, ⟨68, _⟩ => ⟨S_, .f32⟩
  | .hbm, ⟨69, _⟩ => ⟨S20000x128, .f32⟩
  | .hbm, ⟨70, _⟩ => ⟨S640000x1, .i32⟩
  | .hbm, ⟨71, _⟩ => ⟨S20000x128, .f32⟩
  | .hbm, ⟨72, _⟩ => ⟨S_, .f32⟩
  | .hbm, ⟨73, _⟩ => ⟨S20000x3, .f32⟩
  | .hbm, ⟨74, _⟩ => ⟨S640000x1, .i32⟩
  | .hbm, ⟨75, _⟩ => ⟨S20000x3, .f32⟩
  | .hbm, ⟨76, _⟩ => ⟨S20000x3, .f32⟩
  | .hbm, ⟨77, _⟩ => ⟨S128x128, .f32⟩
  | .hbm, ⟨78, _⟩ => ⟨S128x128, .f32⟩
  | .hbm, ⟨79, _⟩ => ⟨S20000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x3, .f32⟩
  | .local _ .vmem, ⟨5, _⟩ => ⟨S4000x3, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S4000x128, .bf16⟩
  | .local _ .vmem, ⟨16, _⟩ => ⟨S4000x128, .bf16⟩
  | .local _ .vmem, ⟨17, _⟩ => ⟨S4000x3, .f32⟩
  | .local _ .vmem, ⟨18, _⟩ => ⟨S4000x3, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43_0 : Ref sig .tc := ⟨.hbm, 65, rfl⟩
abbrev main_v43_1 : Ref sig .tc := ⟨.hbm, 66, rfl⟩
abbrev main_v44 : Ref sig .tc := ⟨.hbm, 67, rfl⟩
abbrev main_cst : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4000x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4000x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  slices_S128x257_S128x128_0_0 : S128x257.Slices ![0, 0] S128x128
  slices_S128x257_S128x128_0_128 : S128x257.Slices ![0, 128] S128x128
  slices_S128x257_S128x1_0_256 : S128x257.Slices ![0, 256] S128x1
  transposes_S128x1_S1x128_1_0 : S128x1.Transposes [1, 0] S1x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  reduces_S4000x3_S4000 : S4000x3.Reduces [1] S4000
  shapeCasts_S4000_S4000x1 : S4000.ShapeCasts S4000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  reduces_S4000x128_S4000 : S4000x128.Reduces [1] S4000
  broadcasts_S4000x1_S4000x3 : S4000x1.Broadcasts S4000x3
  bcast_S_S20000x128 : S_.BroadcastsInDim S20000x128 (![] : Fin 0 → Fin S20000x128.rank)
  bcast_S_S20000x3 : S_.BroadcastsInDim S20000x3 (![] : Fin 0 → Fin S20000x3.rank)
  slices_S128x256_S128x128_0_0 : S128x256.Slices ![0, 0] S128x128
  slices_S128x256_S128x128_0_128 : S128x256.Slices ![0, 128] S128x128
  gather_S20000x128_S640000x1_S640000x128_1_0_n_n_0_1_1128_wf : GatherDims.WF S20000x128 S640000x1 S640000x128 [1] [0] [] [0] [] 1 ![1, 128]
  gather_S20000x3_S640000x1_S640000x3_1_0_n_n_0_1_13_wf : GatherDims.WF S20000x3 S640000x1 S640000x3 [1] [0] [] [0] [] 1 ![1, 3]
  dot_S4000x128_S128x128_S4000x128_1_0_0_1_n_n_wf : DotDims.WF S4000x128 S128x128 S4000x128 [1] [0] [0] [1] [] []
  scatter_S20000x128_S640000x1_S640000x128_1_0_0_1_wf : ScatterDims.WF S20000x128 S640000x1 S640000x128 [1] [0] [0] 1
  scatter_S20000x3_S640000x1_S640000x3_1_0_0_1_wf : ScatterDims.WF S20000x3 S640000x1 S640000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .bf16 = 32 ∨ (Rect.block (s := S640000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .bf16 = 32 ∨ (Rect.block (s := S640000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S640000x3.size a
  hwx0_2 : ∀ i : grid0.Coords, EltTy.bits .f32 = 32 ∨ (Rect.block (s := S640000x3) S4000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x128.size a ≤ S640000x128.size a
  hwx0_12 : ∀ i : grid0.Coords, EltTy.bits .bf16 = 32 ∨ (Rect.block (s := S640000x128) S4000x128.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x3.size a ≤ S640000x3.size a
  hwx0_13 : ∀ i : grid0.Coords, EltTy.bits .f32 = 32 ∨ (Rect.block (s := S640000x3) S4000x3.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S20000x128.size a
  hwx1_1 : ∀ i : grid1.Coords, EltTy.bits .f32 = 32 ∨ (Rect.block (s := S20000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S20000x128.size a
  hwx1_7 : ∀ i : grid1.Coords, EltTy.bits .f32 = 32 ∨ (Rect.block (s := S20000x128) S4000x128.size (cc1_transform_7 i) (hinb1_7 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def gather_S20000x3_S640000x1_S640000x3_1_0_n_n_0_1_13 : GatherDims S20000x3 S640000x1 S640000x3 where
  offsetDims := [1]
  collapsedSliceDims := [0]
  operandBatchingDims := []
  startIndicesBatchingDims := []
  startIndexMap := [0]
  indexVectorDim := 1
  sliceSizes := ![1, 3]
  wf := gather_S20000x3_S640000x1_S640000x3_1_0_n_n_0_1_13_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000x3_S640000x1_S640000x3_1_0_0_1 : ScatterDims S20000x3 S640000x1 S640000x3 where
  updateWindowDims := [1]
  insertedWindowDims := [0]
  scatterDimsToOperandDims := [0]
  indexVectorDim := 1
  wf := scatter_S20000x3_S640000x1_S640000x3_1_0_0_1_wf

abbrev win0_0 : Pipeline.Window sig grid0 :=
  Pipeline.Window.ofSpec (Memref.whole main_v11) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v39) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v40) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v43_0) S4000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v43_1) S4000x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S20000x128 : Shape := ⟨2, ![20000, 128]⟩
abbrev S20000x3 : Shape := ⟨2, ![20000, 3]⟩
abbrev S2x640000 : Shape := ⟨2, ![2, 640000]⟩
abbrev S128x257 : Shape := ⟨2, ![128, 257]⟩
abbrev S128 : Shape := ⟨1, ![128]⟩
abbrev S128x128 : Shape := ⟨2, ![128, 128]⟩
abbrev S128x256 : Shape := ⟨2, ![128, 256]⟩
abbrev S1x128 : Shape := ⟨2, ![1, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x3 : Shape := ⟨2, ![640000, 3]⟩
abbrev S640000x128 : Shape := ⟨2, ![640000, 128]⟩
abbrev S640000x257 : Shape := ⟨2, ![640000, 257]⟩
abbrev S257x128 : Shape := ⟨2, ![257, 128]⟩
abbrev S128x1 : Shape := ⟨2, ![128, 1]⟩
abbrev S20000x256 : Shape := ⟨2, ![20000, 256]⟩
abbrev S256x128 : Shape := ⟨2, ![256, 128]⟩

abbrev nBuf : Space → Nat
  | .hbm => 136
  | .vmem => 0
  | .smem => 0
  | _ => 0

abbrev hbmTy0_0 (i : Nat) : BufTy := match i % 128 with
  | 0 => ⟨S20000x128, .f32⟩
  | 1 => ⟨S20000x3, .f32⟩
  | 2 => ⟨S2x640000, .i32⟩
  | 3 => ⟨S128x257, .f32⟩
  | 4 => ⟨S128, .f32⟩
  | 5 => ⟨S128x128, .f32⟩
  | 6 => ⟨S128, .f32⟩
  | 7 => ⟨S128x256, .f32⟩
  | 8 => ⟨S128, .f32⟩
  | 9 => ⟨S128x128, .f32⟩
  | 10 => ⟨S128, .f32⟩
  | 11 => ⟨S128x128, .f32⟩
  | 12 => ⟨S128, .f32⟩
  | 13 => ⟨S1x128, .f32⟩
  | 14 => ⟨S1x640000, .i32⟩
  | 15 => ⟨S640000, .i32⟩
  | 16 => ⟨S1x640000, .i32⟩
  | 17 => ⟨S640000, .i32⟩
  | 18 => ⟨S_, .i32⟩
  | 19 => ⟨S640000, .i32⟩
  | 20 => ⟨S640000, .i1⟩
  | 21 => ⟨S_, .i32⟩
  | 22 => ⟨S640000, .i32⟩
  | 23 => ⟨S640000, .i32⟩
  | 24 => ⟨S640000, .i32⟩
  | 25 => ⟨S640000x1, .i32⟩
  | 26 => ⟨S640000x3, .f32⟩
  | 27 => ⟨S_, .i32⟩
  | 28 => ⟨S640000, .i32⟩
  | 29 => ⟨S640000, .i1⟩
  | 30 => ⟨S_, .i32⟩
  | 31 => ⟨S640000, .i32⟩
  | 32 => ⟨S640000, .i32⟩
  | 33 => ⟨S640000, .i32⟩
  | 34 => ⟨S640000x1, .i32⟩
  | 35 => ⟨S640000x3, .f32⟩
  | 36 => ⟨S640000x3, .f32⟩
  | 37 => ⟨S640000x3, .f32⟩
  | 38 => ⟨S_, .f32⟩
  | 39 => ⟨S640000, .f32⟩
  | 40 => ⟨S640000x1, .f32⟩
  | 41 => ⟨S_, .i32⟩
  | 42 => ⟨S640000, .i32⟩
  | 43 => ⟨S640000, .i1⟩
  | 44 => ⟨S_, .i32⟩
  | 45 => ⟨S640000, .i32⟩
  | 46 => ⟨S640000, .i32⟩
  | 47 => ⟨S640000, .i32⟩
  | 48 => ⟨S640000x1, .i32⟩
  | 49 => ⟨S640000x128, .f32⟩
  | 50 => ⟨S_, .i32⟩
  | 51 => ⟨S640000, .i32⟩
  | 52 => ⟨S640000, .i1⟩
  | 53 => ⟨S_, .i32⟩
  | 54 => ⟨S640000, .i32⟩
  | 55 => ⟨S640000, .i32⟩
  | 56 => ⟨S640000, .i32⟩
  | 57 => ⟨S640000x1, .i32⟩
  | 58 => ⟨S640000x128, .f32⟩
  | 59 => ⟨S640000x257, .f32⟩
  | 60 => ⟨S257x128, .f32⟩
  | 61 => ⟨S640000x128, .f32⟩
  | 62 => ⟨S1x128, .f32⟩
  | 63 => ⟨S640000x128, .f32⟩
  | 64 => ⟨S640000x128, .f32⟩
  | 65 => ⟨S640000x128, .f32⟩
  | 66 => ⟨S640000x128, .f32⟩
  | 67 => ⟨S_, .f32⟩
  | 68 => ⟨S640000x128, .f32⟩
  | 69 => ⟨S640000x128, .f32⟩
  | 70 => ⟨S_, .f32⟩
  | 71 => ⟨S640000x128, .f32⟩
  | 72 => ⟨S640000x128, .f32⟩
  | 73 => ⟨S640000x128, .f32⟩
  | 74 => ⟨S128x128, .f32⟩
  | 75 => ⟨S640000x128, .f32⟩
  | 76 => ⟨S1x128, .f32⟩
  | 77 => ⟨S640000x128, .f32⟩
  | 78 => ⟨S640000x128, .f32⟩
  | 79 => ⟨S640000x128, .f32⟩
  | 80 => ⟨S640000x128, .f32⟩
  | 81 => ⟨S_, .f32⟩
  | 82 => ⟨S640000x128, .f32⟩
  | 83 => ⟨S640000x128, .f32⟩
  | 84 => ⟨S_, .f32⟩
  | 85 => ⟨S640000x128, .f32⟩
  | 86 => ⟨S640000x128, .f32⟩
  | 87 => ⟨S640000x128, .f32⟩
  | 88 => ⟨S128x128, .f32⟩
  | 89 => ⟨S640000x128, .f32⟩
  | 90 => ⟨S1x128, .f32⟩
  | 91 => ⟨S640000x128, .f32⟩
  | 92 => ⟨S640000x128, .f32⟩
  | 93 => ⟨S640000x128, .f32⟩
  | 94 => ⟨S640000x128, .f32⟩
  | 95 => ⟨S_, .f32⟩
  | 96 => ⟨S640000x128, .f32⟩
  | 97 => ⟨S640000x128, .f32⟩
  | 98 => ⟨S_, .f32⟩
  | 99 => ⟨S640000x128, .f32⟩
  | 100 => ⟨S640000x128, .f32⟩
  | 101 => ⟨S640000x128, .f32⟩
  | 102 => ⟨S128x1, .f32⟩
  | 103 => ⟨S640000x1, .f32⟩
  | 104 => ⟨S640000x3, .f32⟩
  | 105 => ⟨S640000x3, .f32⟩
  | 106 => ⟨S_, .f32⟩
  | 107 => ⟨S20000x3, .f32⟩
  | 108 => ⟨S640000x1, .i32⟩
  | 109 => ⟨S20000x3, .f32⟩
  | 110 => ⟨S20000x3, .f32⟩
  | 111 => ⟨S_, .f32⟩
  | 112 => ⟨S20000x128, .f32⟩
  | 113 => ⟨S640000x1, .i32⟩
  | 114 => ⟨S20000x128, .f32⟩
  | 115 => ⟨S20000x256, .f32⟩
  | 116 => ⟨S256x128, .f32⟩
  | 117 => ⟨S20000x128, .f32⟩
  | 118 => ⟨S1x128, .f32⟩
  | 119 => ⟨S20000x128, .f32⟩
  | 120 => ⟨S20000x128, .f32⟩
  | 121 => ⟨S20000x128, .f32⟩
  | 122 => ⟨S20000x128, .f32⟩
  | 123 => ⟨S_, .f32⟩
  | 124 => ⟨S20000x128, .f32⟩
  | 125 => ⟨S20000x128, .f32⟩
  | 126 => ⟨S_, .f32⟩
  | 127 => ⟨S20000x128, .f32⟩
  | _ => ⟨S20000x128, .f32⟩

abbrev hbmTy0_1 (i : Nat) : BufTy := match i % 128 with
  | 0 => ⟨S20000x128, .f32⟩
  | 1 => ⟨S20000x128, .f32⟩
  | 2 => ⟨S128x128, .f32⟩
  | 3 => ⟨S20000x128, .f32⟩
  | 4 => ⟨S1x128, .f32⟩
  | 5 => ⟨S20000x128, .f32⟩
  | 6 => ⟨S20000x128, .f32⟩
  | 7 => ⟨S20000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_13 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_14 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_15 : Ref sig .tc := ⟨.hbm, 123, rfl⟩
abbrev main_v92 : Ref sig .tc := ⟨.hbm, 124, rfl⟩
abbrev main_v93 : Ref sig .tc := ⟨.hbm, 125, rfl⟩
abbrev main_cst_16 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  reducesTo_S640000x3_S640000_d1 : S640000x3.ReducesTo [1] S640000
  h_S_ : 0 < S_.numel
  concatenates_S640000x128_S640000x128_S640000x1_S640000x257_d1 : Shape.Concatenates [S640000x128, S640000x128, S640000x1] S640000x257 1
  transposes_S128x257_S257x128_1_0 : S128x257.Transposes [1, 0] S257x128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  transposes_S128x128_S128x128_1_0 : S128x128.Transposes [1, 0] S128x128
  transposes_S1x128_S128x1_1_0 : S1x128.Transposes [1, 0] S128x1
  bcast_S640000x1_S640000x3_0_1 : S640000x1.BroadcastsInDim S640000x3 (![0, 1] : Fin 2 → Fin S640000x3.rank)
  bcast_S_S20000x3 : S_.BroadcastsInDim S20000x3 (![] : Fin 0 → Fin S20000x3.rank)
  bcast_S_S20000x128 : S_.BroadcastsInDim S20000x128 (![] : Fin 0 → Fin S20000x128.rank)
  concatenates_S20000x128_S20000x128_S20000x256_d1 : Shape.Concatenates [S20000x128, S20000x128] S20000x256 1
  transposes_S128x256_S256x128_1_0 : S128x256.Transposes [1, 0] S256x128
  bcast_S1x128_S20000x128_0_1 : S1x128.BroadcastsInDim S20000x128 (![0, 1] : Fin 2 → Fin S20000x128.rank)
  gather_S20000x3_S640000x1_S640000x3_1_0_n_n_0_1_13_wf : GatherDims.WF S20000x3 S640000x1 S640000x3 [1] [0] [] [0] [] 1 ![1, 3]
  gather_S20000x128_S640000x1_S640000x128_1_0_n_n_0_1_1128_wf : GatherDims.WF S20000x128 S640000x1 S640000x128 [1] [0] [] [0] [] 1 ![1, 128]
  dot_S640000x257_S257x128_S640000x128_1_0_0_1_n_n_wf : DotDims.WF S640000x257 S257x128 S640000x128 [1] [0] [0] [1] [] []
  dot_S640000x128_S128x128_S640000x128_1_0_0_1_n_n_wf : DotDims.WF S640000x128 S128x128 S640000x128 [1] [0] [0] [1] [] []
  dot_S640000x128_S128x1_S640000x1_1_0_0_1_n_n_wf : DotDims.WF S640000x128 S128x1 S640000x1 [1] [0] [0] [1] [] []
  scatter_S20000x3_S640000x1_S640000x3_1_0_0_1_wf : ScatterDims.WF S20000x3 S640000x1 S640000x3 [1] [0] [0] 1
  scatter_S20000x128_S640000x1_S640000x128_1_0_0_1_wf : ScatterDims.WF S20000x128 S640000x1 S640000x128 [1] [0] [0] 1
  dot_S20000x256_S256x128_S20000x128_1_0_0_1_n_n_wf : DotDims.WF S20000x256 S256x128 S20000x128 [1] [0] [0] [1] [] []
  dot_S20000x128_S128x128_S20000x128_1_0_0_1_n_n_wf : DotDims.WF S20000x128 S128x128 S20000x128 [1] [0] [0] [1] [] []

variable [Facts₀]

def gather_S20000x3_S640000x1_S640000x3_1_0_n_n_0_1_13 : GatherDims S20000x3 S640000x1 S640000x3 where
  offsetDims := [1]
  collapsedSliceDims := [0]
  operandBatchingDims := []
  startIndicesBatchingDims := []
  startIndexMap := [0]
  indexVectorDim := 1
  sliceSizes := ![1, 3]
  wf := gather_S20000x3_S640000x1_S640000x3_1_0_n_n_0_1_13_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x257_S257x128_S640000x128_1_0_0_1_n_n : DotDims S640000x257 S257x128 S640000x128 where
  lhsContracting := [1]
  rhsContracting := [0]
  lhsNonContracting := [0]
  rhsNonContracting := [1]
  lhsBatch := []
  rhsBatch := []
  wf := dot_S640000x257_S257x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S20000x3_S640000x1_S640000x3_1_0_0_1 : ScatterDims S20000x3 S640000x1 S640000x3 where
  updateWindowDims := [1]
  insertedWindowDims := [0]
  scatterDimsToOperandDims := [0]
  indexVectorDim := 1
  wf := scatter_S20000x3_S640000x1_S640000x3_1_0_0_1_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.KRun.lean ====
/-
  The idealized kernel program's run, with its two results named. Its @main is four segments — a stretch of host
  operations, the edge region, a second stretch, the node region — and the buffer contents at the segment boundaries
  form a fold W0 … W4 from the launch memory: a stretch's contents are the host operations' results, a region's are its
  arrays as its write-backs leave them and every other buffer as entered. Every weakly fair execution terminates without
  a fault in a state where each unscoped buffer holds the last boundary's contents; so the node output and the updated
  coordinates end at W4's contents of their buffers, and the fourteen arguments end as launched.
-/
import proofs.«137929_j9320079032381_2_alg».proof.Proof.KernelIdealFrameP

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the results named: the node output and the updated coordinates end at the last boundary's contents
    of their buffers, and every argument array ends as launched. -/
theorem run_vals : θ_run defs (onTc (τ := τ) (main (F := F))) ⟨m, fun _ => 0, ρ⟩ (fun r => ∀ c : Dev nD,
      r.2.mem ((c.tc : Thread nD τ).loc main_v54) = W4 m ρ c (Proc.devRef .tc main_v54)
      ∧ r.2.mem ((c.tc : Thread nD τ).loc main_v51) = W4 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v54 (by decide)),
       h c _ (mem_uc main_v51 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.RunValue

end
-- ==== Proof.KHost.lean ====
/-
  What the two stretches of host operations of the idealized kernel program leave in the buffers the regions read,
  from ANY contents W of the buffers before the stretch, at any instance F.
  Before the edge region: the source and target index columns (negative indices wrapped by 20000, as the reference wraps
  them), the node features gathered at them (after a change of float format), the difference of the coordinates gathered
  at them, the three column blocks of the first edge weight (the last one transposed to a row), and each bias as a row.
  Between the regions: the edge features scatter-added over the source nodes (after a change of float format), the
  coordinates plus the scatter-added updates, and the two column blocks of the first node weight.
  The index part of each statement is spelled with the reference's own stages, which are the same operations.
-/
import proofs.«137929_j9320079032381_2_alg».proof.Proof.KernelIdealLaunchP
import proofs.«137929_j9320079032381_2_alg».proof.Proof.Gen.ReferenceIdeal.Read
import Idealize.ShloMosaic.Lib.StableHlo.Run

set_option maxHeartbeats 1000000

noncomputable section

namespace Cert.KernelIdeal.HostValue

open Cert.KernelIdeal Cert.KernelIdeal.Gen Cert.KernelIdeal.GenP Idealize.ShloMosaic Idealize.ShloMosaic.TcCoe Idealize.SL.Sem Idealize.ShloMosaic.StableHlo

variable {F : FTy → Type} [FloatOps F]
variable (W : Valuation τ sig (Elt F))

/-! ## Before the edge region -/

/-- The source index of every edge: row 0 of the edge list. -/
theorem pre_src : StableHlo.after (hostOps0 (F := F)) W (Proc.devRef .tc main_v1) = Cert.ReferenceIdeal.Read.val_main_v1 (F := F) (W (Proc.devRef .tc main_arg2)) := by
  after_results_simp
  rfl
/-- The node features gathered at the (wrapped) source indices. -/
theorem pre_hsrc : StableHlo.after (hostOps0 (F := F)) W (Proc.devRef .tc main_v11) = Host.gather gather_S20000x128_S640000x1_S640000x128_1_0_n_n_0_1_1128 (truncf .bf16 (W (Proc.devRef .tc main_arg0)) bitsLt_bf16_f32) (Cert.ReferenceIdeal.Read.val_main_v27 (F := F) (W (Proc.devRef .tc main_arg2))) := by
  after_results_simp
  rfl
/-- The node features gathered at the (wrapped) target indices. -/
theorem pre_hdst : StableHlo.after (hostOps0 (F := F)) W (Proc.devRef .tc main_v18) = Host.gather gather_S20000x128_S640000x1_S640000x128_1_0_n_n_0_1_1128 (truncf .bf16 (W (Proc.devRef .tc main_arg0)) bitsLt_bf16_f32) (Cert.ReferenceIdeal.Read.val_main_v34 (F := F) (W (Proc.devRef .tc main_arg2))) := by
  after_results_simp
  rfl
/-- The coordinate differences: coordinates gathered at the source minus coordinates gathered at the target. -/
theorem pre_cdiff : StableHlo.after (hostOps0 (F := F)) W (Proc.devRef .tc main_v33) = Cert.ReferenceIdeal.Read.val_main_v18 (F := F) (W (Proc.devRef .tc main_arg1)) (W (Proc.devRef .tc main_arg2)) := by
  after_results_simp
  rfl
/-- Columns 0 … 127 of the first edge weight. -/
theorem pre_wsrc : StableHlo.after (hostOps0 (F := F)) W (Proc.devRef .tc main_v34) = extractStridedSlice S128x128 ![0, 0] (W (Proc.devRef .tc main_arg3)) slices_S128x257_S128x128_0_0 := by
  after_results_simp
/-- Columns 128 … 255 of the first edge weight. -/
theorem pre_wdst : StableHlo.after (hostOps0 (F := F)) W (Proc.devRef .tc main_v35) = extractStridedSlice S128x128 ![0, 128] (W (Proc.devRef .tc main_arg3)) slices_S128x257_S128x128_0_128 := by
  after_results_simp
/-- Column 256 of the first edge weight, as a row. -/
theorem pre_wrad : StableHlo.after (hostOps0 (F := F)) W (Proc.devRef .tc main_v37) = transpose S1x128 [1, 0] (extractStridedSlice S128x1 ![0, 256] (W (Proc.devRef .tc main_arg3)) slices_S128x257_S128x1_0_256) transposes_S128x1_S1x128_1_0 := by
  after_results_simp
/-- A bias vector as a row. -/
theorem pre_be1 : StableHlo.after (hostOps0 (F := F)) W (Proc.devRef .tc main_v38) = shapeCast S1x128 (W (Proc.devRef .tc main_arg4)) shapeCasts_S128_S1x128 := by
  after_results_simp
  rfl
/-- A bias vector as a row. -/
theorem pre_be2 : StableHlo.after (hostOps0 (F := F)) W (Proc.devRef .tc main_v39) = shapeCast S1x128 (W (Proc.devRef .tc main_arg6)) shapeCasts_S128_S1x128 := by
  after_results_simp
  rfl
/-- A bias vector as a row. -/
theorem pre_bc1 : StableHlo.after (hostOps0 (F := F)) W (Proc.devRef .tc main_v40) = shapeCast S1x128 (W (Proc.devRef .tc main_arg12)) shapeCasts_S128_S1x128 := by
  after_results_simp
  rfl
/-- A bias vector as a row. -/
theorem pre_bn1 : StableHlo.after (hostOps0 (F := F)) W (Proc.devRef .tc main_v41) = shapeCast S1x128 (W (Proc.devRef .tc main_arg8)) shapeCasts_S128_S1x128 := by
  after_results_simp
  rfl
/-- A bias vector as a row. -/
theorem pre_bn2 : StableHlo.after (hostOps0 (F := F)) W (Proc.devRef .tc main_v42) = shapeCast S1x128 (W (Proc.devRef .tc main_arg10)) shapeCasts_S128_S1x128 := by
  after_results_simp
  rfl
/-! The first stretch writes none of these. -/

theorem pre_keep_arg0 : StableHlo.after (hostOps0 (F := F)) W (Proc.devRef .tc main_arg0) = W (Proc.devRef .tc main_arg0) := by
  after_results_simp
theorem pre_keep_arg1 : StableHlo.after (hostOps0 (F := F)) W (Proc.devRef .tc main_arg1) = W (Proc.devRef .tc main_arg1) := by
  after_results_simp
theorem pre_keep_arg5 : StableHlo.after (hostOps0 (F := F)) W (Proc.devRef .tc main_arg5) = W (Proc.devRef .tc main_arg5) := by
  after_results_simp
theorem pre_keep_arg7 : StableHlo.after (hostOps0 (F := F)) W (Proc.devRef .tc main_arg7) = W (Proc.devRef .tc main_arg7) := by
  after_results_simp
theorem pre_keep_arg9 : StableHlo.after (hostOps0 (F := F)) W (Proc.devRef .tc main_arg9) = W (Proc.devRef .tc main_arg9) := by
  after_results_simp
theorem pre_keep_arg11 : StableHlo.after (hostOps0 (F := F)) W (Proc.devRef .tc main_arg11) = W (Proc.devRef .tc main_arg11) := by
  after_results_simp
theorem pre_keep_arg13 : StableHlo.after (hostOps0 (F := F)) W (Proc.devRef .tc main_arg13) = W (Proc.devRef .tc main_arg13) := by
  after_results_simp

/-! ## Between the regions -/

/-- The edge features scatter-added over the source nodes, from zero. -/
theorem mid_agg : StableHlo.after (hostOps1 (F := F)) W (Proc.devRef .tc main_v47) = Host.scatterAdd scatter_S20000x128_S640000x1_S640000x128_1_0_0_1 (Cert.ReferenceIdeal.Read.val_main_v81 (F := F)) (broadcastInDim S640000x1 ![0] bcast_S640000_S640000x1_0 (W (Proc.devRef .tc main_v1))) (extf .f32 (W (Proc.devRef .tc main_v43_0)) bitsLt_bf16_f32) := by
  after_results_simp
  rfl
/-- The coordinates plus the coordinate updates scatter-added over the source nodes. -/
theorem mid_coord : StableHlo.after (hostOps1 (F := F)) W (Proc.devRef .tc main_v51) = addf (W (Proc.devRef .tc main_arg1)) (Host.scatterAdd scatter_S20000x3_S640000x1_S640000x3_1_0_0_1 (Cert.ReferenceIdeal.Read.val_main_v77 (F := F)) (broadcastInDim S640000x1 ![0] bcast_S640000_S640000x1_0 (W (Proc.devRef .tc main_v1))) (W (Proc.devRef .tc main_v43_1))) := by
  after_results_simp
  rfl
/-- Columns 0 … 127 of the first node weight. -/
theorem mid_wh : StableHlo.after (hostOps1 (F := F)) W (Proc.devRef .tc main_v52) = extractStridedSlice S128x128 ![0, 0] (W (Proc.devRef .tc main_arg7)) slices_S128x256_S128x128_0_0 := by
  after_results_simp
/-- Columns 128 … 255 of the first node weight. -/
theorem mid_wa : StableHlo.after (hostOps1 (F := F)) W (Proc.devRef .tc main_v53) = extractStridedSlice S128x128 ![0, 128] (W (Proc.devRef .tc main_arg7)) slices_S128x256_S128x128_0_128 := by
  after_results_simp
/-! The second stretch writes none of these. -/

theorem mid_keep_arg0 : StableHlo.after (hostOps1 (F := F)) W (Proc.devRef .tc main_arg0) = W (Proc.devRef .tc main_arg0) := by
  after_results_simp
theorem mid_keep_v41 : StableHlo.after (hostOps1 (F := F)) W (Proc.devRef .tc main_v41) = W (Proc.devRef .tc main_v41) := by
  after_results_simp
theorem mid_keep_arg9 : StableHlo.after (hostOps1 (F := F)) W (Proc.devRef .tc main_arg9) = W (Proc.devRef .tc main_arg9) := by
  after_results_simp
theorem mid_keep_v42 : StableHlo.after (hostOps1 (F := F)) W (Proc.devRef .tc main_v42) = W (Proc.devRef .tc main_v42) := by
  after_results_simp

end Cert.KernelIdeal.HostValue

end
-- ==== Proof.Spec.lean ====
/-
  One layer of an E(n)-equivariant graph network (edge model, coordinate model, node model), written ROW BY ROW on
  the extended reals: what one edge's feature row, one edge's coordinate update and one node's output row are as
  functions of the rows they are computed from.

  Every function here takes plain coordinate functions (`Fin 128 → EReal` for a feature row, `Fin 3 → EReal` for a
  coordinate row, `Fin 128 → Fin 128 → EReal` for a weight matrix read as (output unit, input unit)), so a row of a
  4000-row block and the same row of the whole 640000-row array are literally the same arguments: tiling never enters.

  The first linear map of the edge model acts on the concatenation (source features, target features, squared
  distance); it is written here already split into its three parts
      ∑ₖ hs k · Ws j k  +  ∑ₖ hd k · Wd j k  +  ‖cd‖² · wr j,
  and `sum_split3` / `sum_split2` are the regroupings that turn one sum over the concatenated axis into these parts
  (only commutativity and associativity of + are used, so no finiteness is needed on the extended reals).
-/
import Idealize.ShloMosaic.PureOps.Ideal
import Mathlib.Algebra.BigOperators.Fin

noncomputable section

namespace Cert.EGcl

open Idealize.ShloMosaic

/-- The activation x · σ(x), σ the logistic function 1 / (1 + e⁻ˣ). -/
def silu (x : EReal) : EReal := x * Ideal.logistic x

/-- The squared length of a coordinate difference. -/
def radial (cd : Fin 3 → EReal) : EReal := ∑ a : Fin 3, cd a * cd a

/-- First linear map of the edge model at output unit `j`: source part + target part + distance part + bias. -/
def pre1 (hs hd : Fin 128 → EReal) (cd : Fin 3 → EReal) (Ws Wd : Fin 128 → Fin 128 → EReal) (wr b1 : Fin 128 → EReal)
    (j : Fin 128) : EReal :=
  (∑ k : Fin 128, hs k * Ws j k) + (∑ k : Fin 128, hd k * Wd j k) + radial cd * wr j + b1 j

/-- The edge feature at unit `j`: activation, second linear map, activation. -/
def edgeFeat (hs hd : Fin 128 → EReal) (cd : Fin 3 → EReal) (Ws Wd : Fin 128 → Fin 128 → EReal) (wr b1 : Fin 128 → EReal)
    (W2 : Fin 128 → Fin 128 → EReal) (b2 : Fin 128 → EReal) (j : Fin 128) : EReal :=
  silu ((∑ k : Fin 128, silu (pre1 hs hd cd Ws Wd wr b1 k) * W2 j k) + b2 j)

/-- The scalar the coordinate model gives an edge: linear map, activation, then the inner product with `wc2`. -/
def coordWeight (hs hd : Fin 128 → EReal) (cd : Fin 3 → EReal) (Ws Wd : Fin 128 → Fin 128 → EReal) (wr b1 : Fin 128 → EReal)
    (W2 : Fin 128 → Fin 128 → EReal) (b2 : Fin 128 → EReal) (Wc1 : Fin 128 → Fin 128 → EReal) (bc1 wc2 : Fin 128 → EReal) : EReal :=
  ∑ k : Fin 128, silu ((∑ l : Fin 128, edgeFeat hs hd cd Ws Wd wr b1 W2 b2 l * Wc1 k l) + bc1 k) * wc2 k

/-- An edge's coordinate update: the coordinate difference scaled by the edge's scalar. -/
def trans (hs hd : Fin 128 → EReal) (cd : Fin 3 → EReal) (Ws Wd : Fin 128 → Fin 128 → EReal) (wr b1 : Fin 128 → EReal)
    (W2 : Fin 128 → Fin 128 → EReal) (b2 : Fin 128 → EReal) (Wc1 : Fin 128 → Fin 128 → EReal) (bc1 wc2 : Fin 128 → EReal)
    (a : Fin 3) : EReal :=
  cd a * coordWeight hs hd cd Ws Wd wr b1 W2 b2 Wc1 bc1 wc2

/-- A node's output row at unit `j`: the residual `h j` plus the node model of (features, aggregated edge features),
    its first linear map already split into the two parts of the concatenation. -/
def nodeOut (h agg : Fin 128 → EReal) (Wh Wa : Fin 128 → Fin 128 → EReal) (bn1 : Fin 128 → EReal)
    (Wn2 : Fin 128 → Fin 128 → EReal) (bn2 : Fin 128 → EReal) (j : Fin 128) : EReal :=
  h j + ((∑ k : Fin 128, silu ((∑ l : Fin 128, h l * Wh k l) + (∑ l : Fin 128, agg l * Wa k l) + bn1 k) * Wn2 j k) + bn2 j)

/-! ## Regrouping a sum over a concatenated axis -/

variable {M : Type} [AddCommMonoid M]

/-- A sum over 128 + 128 indices is the sum over the first 128 plus the sum over the last 128. -/
theorem sum_split2 (f : Fin 256 → M) :
    ∑ k : Fin 256, f k
      = (∑ k : Fin 128, f ⟨k.val, by omega⟩) + (∑ k : Fin 128, f ⟨128 + k.val, by omega⟩) := by
  have h := Fin.sum_univ_add (M := M) (a := 128) (b := 128) f
  exact h

/-- A sum over 128 + 128 + 1 indices: first 128, next 128, and the last one. -/
theorem sum_split3 (f : Fin 257 → M) :
    ∑ k : Fin 257, f k
      = (∑ k : Fin 128, f ⟨k.val, by omega⟩) + (∑ k : Fin 128, f ⟨128 + k.val, by omega⟩) + f ⟨256, by omega⟩ := by
  rw [Fin.sum_univ_castSucc (n := 256) f, sum_split2 (fun k : Fin 256 => f (Fin.castSucc k))]
  rfl

end Cert.EGcl

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.KEdgePay.lean ====
/-
  The edge kernel's two stored values at an index. With the loaded blocks as variables — 4000 rows of source features,
  target features and coordinate differences, and the whole weight blocks — entry (r, j) of the value stored into the
  edge-feature block and entry (r, a) of the value stored into the coordinate-update block are the row functions of
  Spec.lean applied to row r of the three row blocks and to the weights read as (output unit, input unit): a matrix
  product with a transposed weight block reads ∑ₖ x (r, k) · W (j, k), a sum along a row kept as a column and broadcast
  reads the row's sum, and a change of float format is the identity on the extended reals.
-/
import proofs.«137929_j9320079032381_2_alg».proof.Proof.Gen.KernelIdeal.Skeleton
import proofs.«137929_j9320079032381_2_alg».proof.Proof.Spec
import proofs.«137929_j9320079032381_2_alg».proof.Proof.LibPlainDot
import proofs.«137929_j9320079032381_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeValue

open Cert.KernelIdeal Cert.KernelIdeal.Gen Idealize.ShloMosaic Idealize.ShloMosaic.ValueIdx Idealize.SL.Sem Cert.EGcl

/-- A row block times the transpose of a weight block (its format changed, which is the identity on the extended
    reals), into the zero accumulator: entry (r, j) is the inner product of row r with row j of the weights. -/
theorem E_matmul_trT {φ : FTy} (l : FVec Ideal S4000x128 φ) (W : FVec Ideal S128x128 .f32) (r : Fin 4000) (j : Fin 128) :
    matmul (F := Ideal) (φ₁ := φ) (φ₂ := .bf16) dot_S4000x128_S128x128_S4000x128_1_0_0_1_n_n none l
        (transpose S128x128 [1, 0] (truncf .bf16 W bitsLt_bf16_f32) transposes_S128x128_p1_0_S128x128)
        (constant (F := Ideal) S4000x128 .f32 0x00000000#32) (ix2 r j)
      = ∑ k : Fin 128, l (ix2 r k) * W (ix2 j k) := by
  refine (Cert.PlainDot.matmul_zero_apply 4000 128 128 none l
    (transpose S128x128 [1, 0] (truncf .bf16 W bitsLt_bf16_f32) transposes_S128x128_p1_0_S128x128) (ix2 r j)).trans ?_
  refine Finset.sum_congr rfl fun k _ => ?_
  exact congrArg (fun t => l (ix2 r k) * t)
    (transpose_ix2_apply (truncf .bf16 W bitsLt_bf16_f32) transposes_S128x128_p1_0_S128x128 k j)

/-- A [1, 128] row, passed through the identity shape cast and broadcast over 4000 rows, reads at (r, j) the row at j. -/
theorem E_row_bcast (b : Vec Ideal S1x128 .f32) (r : Fin 4000) (j : Fin 128) :
    broadcastTo S4000x128 (shapeCast S1x128 b shapeCasts_S1x128_S1x128) broadcasts_S1x128_S4000x128 (ix2 r j)
      = b (ix2 0 j) :=
  (broadcastTo_1b_ab_apply (shapeCast S1x128 b shapeCasts_S1x128_S1x128) broadcasts_S1x128_S4000x128 r j).trans
    (congrFun (shapeCast_self b shapeCasts_S1x128_S1x128) (ix2 0 j))

/-- A [1, 128] row broadcast over 4000 rows reads at (r, j) the row at j. -/
theorem E_row_bcast' (b : Vec Ideal S1x128 .f32) (r : Fin 4000) (j : Fin 128) :
    broadcastTo S4000x128 b broadcasts_S1x128_S4000x128 (ix2 r j) = b (ix2 0 j) :=
  broadcastTo_1b_ab_apply b broadcasts_S1x128_S4000x128 r j

/-- The squared length of row r of the coordinate differences, kept as a column and broadcast over 128 columns. -/
theorem E_radial_bcast (c : Vec Ideal S4000x3 .f32) (r : Fin 4000) (j : Fin 128) :
    broadcastTo S4000x128
        (shapeCast S4000x1
          (multiReduction (F := Ideal) .add [1] S4000 (mulf (k0_pay4 (F := Ideal) c) (k0_pay4 (F := Ideal) c)) 0x00000000#32
            reduces_S4000x3_S4000 (.inl rfl) rfl)
          shapeCasts_S4000_S4000x1)
        broadcasts_S4000x1_S4000x128 (ix2 r j)
      = radial (fun a => c (ix2 r a)) := by
  refine (Cert.Keepdims.rowSum_keep_bcast_apply (M := 4000) (K := 3) (N := 128)
    (mulf (k0_pay4 (F := Ideal) c) (k0_pay4 (F := Ideal) c)) 0x00000000#32
    reduces_S4000x3_S4000 (.inl rfl) rfl shapeCasts_S4000_S4000x1 broadcasts_S4000x1_S4000x128 r j).trans ?_
  have e : k0_pay4 (F := Ideal) c = c := shapeCast_self c shapeCasts_S4000x3_S4000x3
  rw [e]
  rfl

/-- The same with both operands passed through identity shape casts first. -/
theorem E_matmul_cast (x : Vec Ideal S4000x128 .bf16) (W : Vec Ideal S128x128 .f32) (r : Fin 4000) (j : Fin 128) :
    matmul (F := Ideal) (φ₁ := .bf16) (φ₂ := .bf16) dot_S4000x128_S128x128_S4000x128_1_0_0_1_n_n none
        (shapeCast S4000x128 x shapeCasts_S4000x128_S4000x128)
        (transpose S128x128 [1, 0] (truncf .bf16 (shapeCast S128x128 W shapeCasts_S128x128_S128x128) bitsLt_bf16_f32)
          transposes_S128x128_p1_0_S128x128)
        (constant (F := Ideal) S4000x128 .f32 0x00000000#32) (ix2 r j)
      = ∑ k : Fin 128, x (ix2 r k) * W (ix2 j k) := by
  refine (E_matmul_trT (φ := .bf16) (shapeCast S4000x128 x shapeCasts_S4000x128_S4000x128)
    (shapeCast S128x128 W shapeCasts_S128x128_S128x128) r j).trans ?_
  rw [shapeCast_self x, shapeCast_self W]

/-- The first linear map of the edge model on the blocks, before its activation: entry (r, k) is `pre1` of row r. -/
def E_pre (x0 x1 : Vec Ideal S4000x128 .bf16) (x2 : Vec Ideal S4000x3 .f32) (x3 x4 : Vec Ideal S128x128 .f32)
    (x5 x6 : Vec Ideal S1x128 .f32) : FVec Ideal S4000x128 .f32 :=
  addf
    (addf
      (addf
        (matmul (F := Ideal) (φ₁ := .bf16) (φ₂ := .bf16) dot_S4000x128_S128x128_S4000x128_1_0_0_1_n_n none
          (shapeCast S4000x128 x0 shapeCasts_S4000x128_S4000x128)
          (transpose S128x128 [1, 0] (truncf .bf16 (shapeCast S128x128 x3 shapeCasts_S128x128_S128x128) bitsLt_bf16_f32)
            transposes_S128x128_p1_0_S128x128)
          (constant (F := Ideal) S4000x128 .f32 0x00000000#32))
        (matmul (F := Ideal) (φ₁ := .bf16) (φ₂ := .bf16) dot_S4000x128_S128x128_S4000x128_1_0_0_1_n_n none
          (shapeCast S4000x128 x1 shapeCasts_S4000x128_S4000x128)
          (transpose S128x128 [1, 0] (truncf .bf16 (shapeCast S128x128 x4 shapeCasts_S128x128_S128x128) bitsLt_bf16_f32)
            transposes_S128x128_p1_0_S128x128)
          (constant (F := Ideal) S4000x128 .f32 0x00000000#32)))
      (mulf
        (broadcastTo S4000x128
          (shapeCast S4000x1
            (multiReduction (F := Ideal) .add [1] S4000 (mulf (k0_pay4 (F := Ideal) x2) (k0_pay4 (F := Ideal) x2)) 0x00000000#32
              reduces_S4000x3_S4000 (.inl rfl) rfl)
            shapeCasts_S4000_S4000x1)
          broadcasts_S4000x1_S4000x128)
        (broadcastTo S4000x128 (shapeCast S1x128 x5 shapeCasts_S1x128_S1x128) broadcasts_S1x128_S4000x128)))
    (broadcastTo S4000x128 (shapeCast S1x128 x6 shapeCasts_S1x128_S1x128) broadcasts_S1x128_S4000x128)

/-- Entry (r, k) of the first linear map on the blocks is `pre1` of row r at unit k. -/
theorem E_pre_apply (x0 x1 : Vec Ideal S4000x128 .bf16) (x2 : Vec Ideal S4000x3 .f32) (x3 x4 : Vec Ideal S128x128 .f32)
    (x5 x6 : Vec Ideal S1x128 .f32) (r : Fin 4000) (k : Fin 128) :
    E_pre x0 x1 x2 x3 x4 x5 x6 (ix2 r k)
      = pre1 (fun k => x0 (ix2 r k)) (fun k => x1 (ix2 r k)) (fun a => x2 (ix2 r a))
          (fun j k => x3 (ix2 j k)) (fun j k => x4 (ix2 j k)) (fun j => x5 (ix2 0 j)) (fun j => x6 (ix2 0 j)) k := by
  exact congrArg₂ (· + ·)
    (congrArg₂ (· + ·) (congrArg₂ (· + ·) (E_matmul_cast x0 x3 r k) (E_matmul_cast x1 x4 r k))
      (congrArg₂ (· * ·) (E_radial_bcast x2 r k) (E_row_bcast x5 r k)))
    (E_row_bcast x6 r k)

/-- The second linear map's matrix product, as a product over the activated first map. -/
theorem E_pay5_eq (x0 x1 : Vec Ideal S4000x128 .bf16) (x2 : Vec Ideal S4000x3 .f32) (x3 x4 : Vec Ideal S128x128 .f32)
    (x5 x6 : Vec Ideal S1x128 .f32) (x7 : Vec Ideal S128x128 .f32) :
    k0_pay5 (F := Ideal) x0 x1 x3 x4 x2 x5 x6 x7
      = matmul (F := Ideal) (φ₁ := .bf16) (φ₂ := .bf16) dot_S4000x128_S128x128_S4000x128_1_0_0_1_n_n none
          (truncf .bf16 (mulf (E_pre x0 x1 x2 x3 x4 x5 x6) (logistic (E_pre x0 x1 x2 x3 x4 x5 x6))) bitsLt_bf16_f32)
          (transpose S128x128 [1, 0] (truncf .bf16 x7 bitsLt_bf16_f32) transposes_S128x128_p1_0_S128x128)
          (constant (F := Ideal) S4000x128 .f32 0x00000000#32) := rfl

/-- Entry (r, j) of the second linear map's matrix product. -/
theorem E_pay5_apply (x0 x1 : Vec Ideal S4000x128 .bf16) (x2 : Vec Ideal S4000x3 .f32) (x3 x4 : Vec Ideal S128x128 .f32)
    (x5 x6 : Vec Ideal S1x128 .f32) (x7 : Vec Ideal S128x128 .f32) (r : Fin 4000) (j : Fin 128) :
    k0_pay5 (F := Ideal) x0 x1 x3 x4 x2 x5 x6 x7 (ix2 r j)
      = ∑ k : Fin 128, silu (pre1 (fun k => x0 (ix2 r k)) (fun k => x1 (ix2 r k)) (fun a => x2 (ix2 r a))
          (fun j k => x3 (ix2 j k)) (fun j k => x4 (ix2 j k)) (fun j => x5 (ix2 0 j)) (fun j => x6 (ix2 0 j)) k)
          * x7 (ix2 j k) := by
  rw [E_pay5_eq]
  refine (E_matmul_trT (φ := .bf16) _ x7 r j).trans ?_
  refine Finset.sum_congr rfl fun k _ => ?_
  exact congrArg (fun t => silu t * x7 (ix2 j k)) (E_pre_apply x0 x1 x2 x3 x4 x5 x6 r k)

/-- A bias row added and the activation applied, at (r, j). -/
theorem E_pay1_apply (A : FVec Ideal S4000x128 .f32) (b : Vec Ideal S1x128 .f32) (r : Fin 4000) (j : Fin 128) :
    k0_pay1 (F := Ideal) A b (ix2 r j) = silu (A (ix2 r j) + b (ix2 0 j)) :=
  congrArg (fun t => silu (A (ix2 r j) + t)) (E_row_bcast b r j)

/-- The edge feature of row r at unit l, before the change of format in which it is stored. -/
theorem E_feat_apply (x0 x1 : Vec Ideal S4000x128 .bf16) (x2 : Vec Ideal S4000x3 .f32) (x3 x4 : Vec Ideal S128x128 .f32)
    (x5 x6 : Vec Ideal S1x128 .f32) (x7 : Vec Ideal S128x128 .f32) (x8 : Vec Ideal S1x128 .f32) (r : Fin 4000) (j : Fin 128) :
    k0_pay1 (F := Ideal) (k0_pay5 (F := Ideal) x0 x1 x3 x4 x2 x5 x6 x7) x8 (ix2 r j)
      = edgeFeat (fun k => x0 (ix2 r k)) (fun k => x1 (ix2 r k)) (fun a => x2 (ix2 r a))
          (fun j k => x3 (ix2 j k)) (fun j k => x4 (ix2 j k)) (fun j => x5 (ix2 0 j)) (fun j => x6 (ix2 0 j))
          (fun j k => x7 (ix2 j k)) (fun j => x8 (ix2 0 j)) j :=
  (E_pay1_apply (k0_pay5 (F := Ideal) x0 x1 x3 x4 x2 x5 x6 x7) x8 r j).trans
    (congrArg (fun t => silu (t + x8 (ix2 0 j))) (E_pay5_apply x0 x1 x2 x3 x4 x5 x6 x7 r j))

/-- The coordinate model on a block of edge features, before its sum along each row: the activated linear map times the
    last weight row. -/
def E_cw (E : FVec Ideal S4000x128 .f32) (x9 : Vec Ideal S128x128 .f32) (x10 x11 : Vec Ideal S1x128 .f32) :
    FVec Ideal S4000x128 .f32 :=
  mulf
    (mulf
      (addf
        (matmul (F := Ideal) (φ₁ := .bf16) (φ₂ := .bf16) dot_S4000x128_S128x128_S4000x128_1_0_0_1_n_n none
          (truncf .bf16 E bitsLt_bf16_f32)
          (transpose S128x128 [1, 0] (truncf .bf16 x9 bitsLt_bf16_f32) transposes_S128x128_p1_0_S128x128)
          (constant (F := Ideal) S4000x128 .f32 0x00000000#32))
        (broadcastTo S4000x128 (shapeCast S1x128 x10 shapeCasts_S1x128_S1x128) broadcasts_S1x128_S4000x128))
      (logistic
        (addf
          (matmul (F := Ideal) (φ₁ := .bf16) (φ₂ := .bf16) dot_S4000x128_S128x128_S4000x128_1_0_0_1_n_n none
            (truncf .bf16 E bitsLt_bf16_f32)
            (transpose S128x128 [1, 0] (truncf .bf16 x9 bitsLt_bf16_f32) transposes_S128x128_p1_0_S128x128)
            (constant (F := Ideal) S4000x128 .f32 0x00000000#32))
          (broadcastTo S4000x128 (shapeCast S1x128 x10 shapeCasts_S1x128_S1x128) broadcasts_S1x128_S4000x128))))
    (broadcastTo S4000x128 x11 broadcasts_S1x128_S4000x128)

/-- Entry (r, k) of that block. -/
theorem E_cw_apply (E : FVec Ideal S4000x128 .f32) (x9 : Vec Ideal S128x128 .f32) (x10 x11 : Vec Ideal S1x128 .f32)
    (r : Fin 4000) (k : Fin 128) :
    E_cw E x9 x10 x11 (ix2 r k)
      = silu ((∑ l : Fin 128, E (ix2 r l) * x9 (ix2 k l)) + x10 (ix2 0 k)) * x11 (ix2 0 k) := by
  have h := congrArg₂ (· + ·) (E_matmul_trT (φ := .bf16) (truncf .bf16 E bitsLt_bf16_f32) x9 r k) (E_row_bcast x10 r k)
  exact congrArg₂ (· * ·) (congrArg silu h) (E_row_bcast' x11 r k)

/-- The stored coordinate update, as the coordinate differences times the kept and broadcast row sums of that block. -/
theorem E_pay3_eq (v15 : FVec Ideal S4000x3 .f32) (A : FVec Ideal S4000x128 .f32) (x8 : Vec Ideal S1x128 .f32)
    (x9 : Vec Ideal S128x128 .f32) (x10 x11 : Vec Ideal S1x128 .f32) :
    k0_pay3 (F := Ideal) v15 A x8 x9 x10 x11
      = mulf v15
          (broadcastTo S4000x3
            (shapeCast S4000x1
              (multiReduction (F := Ideal) .add [1] S4000 (E_cw (k0_pay1 (F := Ideal) A x8) x9 x10 x11) 0x00000000#32
                reduces_S4000x128_S4000 (.inl rfl) rfl)
              shapeCasts_S4000_S4000x1)
            broadcasts_S4000x1_S4000x3) := rfl

/-- Entry (r, a) of the stored coordinate update. -/
theorem E_pay3_apply (v15 : FVec Ideal S4000x3 .f32) (A : FVec Ideal S4000x128 .f32) (x8 : Vec Ideal S1x128 .f32)
    (x9 : Vec Ideal S128x128 .f32) (x10 x11 : Vec Ideal S1x128 .f32) (r : Fin 4000) (a : Fin 3) :
    k0_pay3 (F := Ideal) v15 A x8 x9 x10 x11 (ix2 r a)
      = v15 (ix2 r a) * ∑ k : Fin 128,
          silu ((∑ l : Fin 128, k0_pay1 (F := Ideal) A x8 (ix2 r l) * x9 (ix2 k l)) + x10 (ix2 0 k)) * x11 (ix2 0 k) := by
  rw [E_pay3_eq]
  refine congrArg (fun t => v15 (ix2 r a) * t) ?_
  refine (Cert.Keepdims.rowSum_keep_bcast_apply (M := 4000) (K := 128) (N := 3)
    (E_cw (k0_pay1 (F := Ideal) A x8) x9 x10 x11) 0x00000000#32
    reduces_S4000x128_S4000 (.inl rfl) rfl shapeCasts_S4000_S4000x1 broadcasts_S4000x1_S4000x3 r a).trans ?_
  exact Finset.sum_congr rfl fun k _ => E_cw_apply (k0_pay1 (F := Ideal) A x8) x9 x10 x11 r k

/-- The value stored into the edge-feature block, at (r, j). -/
theorem pay_edge_feat (x0 x1 : Vec Ideal S4000x128 .bf16) (x2 : Vec Ideal S4000x3 .f32) (x3 x4 : Vec Ideal S128x128 .f32)
    (x5 x6 : Vec Ideal S1x128 .f32) (x7 : Vec Ideal S128x128 .f32) (x8 : Vec Ideal S1x128 .f32) (r : Fin 4000) (j : Fin 128) :
    k0_pay2 (F := Ideal) (k0_pay5 (F := Ideal) x0 x1 x3 x4 x2 x5 x6 x7) x8 (ix2 r j)
      = edgeFeat (fun k => x0 (ix2 r k)) (fun k => x1 (ix2 r k)) (fun a => x2 (ix2 r a))
          (fun j k => x3 (ix2 j k)) (fun j k => x4 (ix2 j k)) (fun j => x5 (ix2 0 j)) (fun j => x6 (ix2 0 j))
          (fun j k => x7 (ix2 j k)) (fun j => x8 (ix2 0 j)) j :=
  E_feat_apply x0 x1 x2 x3 x4 x5 x6 x7 x8 r j

/-- The value stored into the coordinate-update block, at (r, a). -/
theorem pay_trans (x0 x1 : Vec Ideal S4000x128 .bf16) (x2 : Vec Ideal S4000x3 .f32) (x3 x4 : Vec Ideal S128x128 .f32)
    (x5 x6 : Vec Ideal S1x128 .f32) (x7 : Vec Ideal S128x128 .f32) (x8 : Vec Ideal S1x128 .f32)
    (x9 : Vec Ideal S128x128 .f32) (x10 x11 : Vec Ideal S1x128 .f32) (r : Fin 4000) (a : Fin 3) :
    k0_pay3 (F := Ideal) (k0_pay4 (F := Ideal) x2) (k0_pay5 (F := Ideal) x0 x1 x3 x4 x2 x5 x6 x7) x8 x9 x10 x11 (ix2 r a)
      = trans (fun k => x0 (ix2 r k)) (fun k => x1 (ix2 r k)) (fun a => x2 (ix2 r a))
          (fun j k => x3 (ix2 j k)) (fun j k => x4 (ix2 j k)) (fun j => x5 (ix2 0 j)) (fun j => x6 (ix2 0 j))
          (fun j k => x7 (ix2 j k)) (fun j => x8 (ix2 0 j))
          (fun j k => x9 (ix2 j k)) (fun j => x10 (ix2 0 j)) (fun k => x11 (ix2 0 k)) a := by
  refine (E_pay3_apply (k0_pay4 (F := Ideal) x2) (k0_pay5 (F := Ideal) x0 x1 x3 x4 x2 x5 x6 x7) x8 x9 x10 x11 r a).trans ?_
  have e : k0_pay4 (F := Ideal) x2 = x2 := shapeCast_self x2 shapeCasts_S4000x3_S4000x3
  rw [e]
  refine congrArg (fun t => x2 (ix2 r a) * t) ?_
  refine Finset.sum_congr rfl fun k _ => ?_
  refine congrArg (fun t => silu (t + x10 (ix2 0 k)) * x11 (ix2 0 k)) ?_
  exact Finset.sum_congr rfl fun l _ =>
    congrArg (fun t => t * x9 (ix2 k l)) (E_feat_apply x0 x1 x2 x3 x4 x5 x6 x7 x8 r l)

end Cert.KernelIdeal.EdgeValue

end
-- ==== Proof.KEdge.lean ====
/-
  The edge region's two output arrays, from the contents V its input arrays hold when the region is entered. The grid has
  160 points; point t handles rows 4000·t … 4000·t + 3999 of the three row arrays and of the two output arrays, and the
  whole of every weight array. So block t of each output, as written back, is the restriction to those rows of one
  whole-array function — the row functions of Spec.lean applied to row e of the row arrays —, the 160 blocks cover the
  640000 rows, and the array after the region is that function.
-/
import proofs.«137929_j9320079032381_2_alg».proof.Proof.KernelIdealFrameP
import proofs.«137929_j9320079032381_2_alg».proof.Proof.KEdgePay
import proofs.«137929_j9320079032381_2_alg».proof.Proof.Spec
import Idealize.ShloMosaic.Lib.ValueIdx
import Idealize.ShloMosaic.Lib.Pipeline.Value
import Idealize.ShloMosaic.PureOps.Ideal.Laws

noncomputable section

namespace Cert.KernelIdeal.EdgeValue

open Cert.KernelIdeal Cert.KernelIdeal.Gen Cert.KernelIdeal.GenP Idealize.ShloMosaic Idealize.ShloMosaic.TcCoe Idealize.ShloMosaic.ValueIdx Idealize.SL.Sem Cert.EGcl

variable (V : (c : Dev nD) → (b : Ref sig .tc) → Buf (Elt Ideal) ((c : Thread nD τ).loc b))

/-- The zero offsets of a whole-buffer access, as the constant function. -/
theorem E_hz : (![0, 0] : Fin 2 → Nat) = fun _ => 0 := funext fun a => by fin_cases a <;> rfl

/-- The printed index maps over the 160 grid points: the three row windows and the two output windows are at block
    (t, 0), every weight window at block (0, 0). -/
theorem E_idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- Row r of the source block at point t is row 4000·t + r of the source array. -/
theorem E_blk0 (c : Dev nD) (t : Fin cfg0.N) (r : Fin 4000) (k : Fin 128) (e : Fin 640000)
    (he : e.val = 4000 * t.val + r.val) :
    (iblk0 (F := Ideal) V c 0 t : Vec Ideal S4000x128 .bf16) (ix2 r k) = V c main_v11 (ix2 e k) := by
  have hi := (E_idx t).1
  unfold iblk0
  rw [View.read_apply, cast_eq]
  refine congrArg (V c main_v11) (funext fun a => Fin.ext ?_)
  match a with
  | ⟨0, _⟩ => show win0_0.index t (0 : Fin 2) * 4000 + 1 * r.val = e.val; rw [hi.1, he]; omega
  | ⟨1, _⟩ => show win0_0.index t (1 : Fin 2) * 128 + 1 * k.val = k.val; rw [hi.2]; omega

/-- Row r of the target block at point t is row 4000·t + r of the target array. -/
theorem E_blk1 (c : Dev nD) (t : Fin cfg0.N) (r : Fin 4000) (k : Fin 128) (e : Fin 640000)
    (he : e.val = 4000 * t.val + r.val) :
    (iblk0 (F := Ideal) V c 1 t : Vec Ideal S4000x128 .bf16) (ix2 r k) = V c main_v18 (ix2 e k) := by
  have hi := (E_idx t).2.1
  unfold iblk0
  rw [View.read_apply, cast_eq]
  refine congrArg (V c main_v18) (funext fun a => Fin.ext ?_)
  match a with
  | ⟨0, _⟩ => show win0_1.index t (0 : Fin 2) * 4000 + 1 * r.val = e.val; rw [hi.1, he]; omega
  | ⟨1, _⟩ => show win0_1.index t (1 : Fin 2) * 128 + 1 * k.val = k.val; rw [hi.2]; omega

/-- Row r of the coordinate-difference block at point t is row 4000·t + r of the coordinate-difference array. -/
theorem E_blk2 (c : Dev nD) (t : Fin cfg0.N) (r : Fin 4000) (k : Fin 3) (e : Fin 640000)
    (he : e.val = 4000 * t.val + r.val) :
    (iblk0 (F := Ideal) V c 2 t : Vec Ideal S4000x3 .f32) (ix2 r k) = V c main_v33 (ix2 e k) := by
  have hi := (E_idx t).2.2.1
  unfold iblk0
  rw [View.read_apply, cast_eq]
  refine congrArg (V c main_v33) (funext fun a => Fin.ext ?_)
  match a with
  | ⟨0, _⟩ => show win0_2.index t (0 : Fin 2) * 4000 + 1 * r.val = e.val; rw [hi.1, he]; omega
  | ⟨1, _⟩ => show win0_2.index t (1 : Fin 2) * 3 + 1 * k.val = k.val; rw [hi.2]; omega

/-- Window 3's block at any point is its whole array. -/
theorem E_blk3 (c : Dev nD) (t : Fin cfg0.N) :
    (iblk0 (F := Ideal) V c 3 t : Vec Ideal S128x128 .f32) = V c main_v34 := by
  have hi := (E_idx t).2.2.2.1
  funext y
  unfold iblk0
  rw [View.read_apply, cast_eq]
  refine congrArg (V c main_v34) (funext fun a => Fin.ext ?_)
  match a with
  | ⟨0, _⟩ => show win0_3.index t (0 : Fin 2) * 128 + 1 * (y 0).val = (y 0).val; rw [hi.1]; omega
  | ⟨1, _⟩ => show win0_3.index t (1 : Fin 2) * 128 + 1 * (y 1).val = (y 1).val; rw [hi.2]; omega

/-- Window 4's block at any point is its whole array. -/
theorem E_blk4 (c : Dev nD) (t : Fin cfg0.N) :
    (iblk0 (F := Ideal) V c 4 t : Vec Ideal S128x128 .f32) = V c main_v35 := by
  have hi := (E_idx t).2.2.2.2.1
  funext y
  unfold iblk0
  rw [View.read_apply, cast_eq]
  refine congrArg (V c main_v35) (funext fun a => Fin.ext ?_)
  match a with
  | ⟨0, _⟩ => show win0_4.index t (0 : Fin 2) * 128 + 1 * (y 0).val = (y 0).val; rw [hi.1]; omega
  | ⟨1, _⟩ => show win0_4.index t (1 : Fin 2) * 128 + 1 * (y 1).val = (y 1).val; rw [hi.2]; omega

/-- Window 5's block at any point is its whole array. -/
theorem E_blk5 (c : Dev nD) (t : Fin cfg0.N) :
    (iblk0 (F := Ideal) V c 5 t : Vec Ideal S1x128 .f32) = V c main_v37 := by
  have hi := (E_idx t).2.2.2.2.2.1
  funext y
  unfold iblk0
  rw [View.read_apply, cast_eq]
  refine congrArg (V c main_v37) (funext fun a => Fin.ext ?_)
  match a with
  | ⟨0, _⟩ => show win0_5.index t (0 : Fin 2) * 1 + 1 * (y 0).val = (y 0).val; rw [hi.1]; omega
  | ⟨1, _⟩ => show win0_5.index t (1 : Fin 2) * 128 + 1 * (y 1).val = (y 1).val; rw [hi.2]; omega

/-- Window 6's block at any point is its whole array. -/
theorem E_blk6 (c : Dev nD) (t : Fin cfg0.N) :
    (iblk0 (F := Ideal) V c 6 t : Vec Ideal S1x128 .f32) = V c main_v38 := by
  have hi := (E_idx t).2.2.2.2.2.2.1
  funext y
  unfold iblk0
  rw [View.read_apply, cast_eq]
  refine congrArg (V c main_v38) (funext fun a => Fin.ext ?_)
  match a with
  | ⟨0, _⟩ => show win0_6.index t (0 : Fin 2) * 1 + 1 * (y 0).val = (y 0).val; rw [hi.1]; omega
  | ⟨1, _⟩ => show win0_6.index t (1 : Fin 2) * 128 + 1 * (y 1).val = (y 1).val; rw [hi.2]; omega

/-- Window 7's block at any point is its whole array. -/
theorem E_blk7 (c : Dev nD) (t : Fin cfg0.N) :
    (iblk0 (F := Ideal) V c 7 t : Vec Ideal S128x128 .f32) = V c main_arg5 := by
  have hi := (E_idx t).2.2.2.2.2.2.2.1
  funext y
  unfold iblk0
  rw [View.read_apply, cast_eq]
  refine congrArg (V c main_arg5) (funext fun a => Fin.ext ?_)
  match a with
  | ⟨0, _⟩ => show win0_7.index t (0 : Fin 2) * 128 + 1 * (y 0).val = (y 0).val; rw [hi.1]; omega
  | ⟨1, _⟩ => show win0_7.index t (1 : Fin 2) * 128 + 1 * (y 1).val = (y 1).val; rw [hi.2]; omega

/-- Window 8's block at any point is its whole array. -/
theorem E_blk8 (c : Dev nD) (t : Fin cfg0.N) :
    (iblk0 (F := Ideal) V c 8 t : Vec Ideal S1x128 .f32) = V c main_v39 := by
  have hi := (E_idx t).2.2.2.2.2.2.2.2.1
  funext y
  unfold iblk0
  rw [View.read_apply, cast_eq]
  refine congrArg (V c main_v39) (funext fun a => Fin.ext ?_)
  match a with
  | ⟨0, _⟩ => show win0_8.index t (0 : Fin 2) * 1 + 1 * (y 0).val = (y 0).val; rw [hi.1]; omega
  | ⟨1, _⟩ => show win0_8.index t (1 : Fin 2) * 128 + 1 * (y 1).val = (y 1).val; rw [hi.2]; omega

/-- Window 9's block at any point is its whole array. -/
theorem E_blk9 (c : Dev nD) (t : Fin cfg0.N) :
    (iblk0 (F := Ideal) V c 9 t : Vec Ideal S128x128 .f32) = V c main_arg11 := by
  have hi := (E_idx t).2.2.2.2.2.2.2.2.2.1
  funext y
  unfold iblk0
  rw [View.read_apply, cast_eq]
  refine congrArg (V c main_arg11) (funext fun a => Fin.ext ?_)
  match a with
  | ⟨0, _⟩ => show win0_9.index t (0 : Fin 2) * 128 + 1 * (y 0).val = (y 0).val; rw [hi.1]; omega
  | ⟨1, _⟩ => show win0_9.index t (1 : Fin 2) * 128 + 1 * (y 1).val = (y 1).val; rw [hi.2]; omega

/-- Window 10's block at any point is its whole array. -/
theorem E_blk10 (c : Dev nD) (t : Fin cfg0.N) :
    (iblk0 (F := Ideal) V c 10 t : Vec Ideal S1x128 .f32) = V c main_v40 := by
  have hi := (E_idx t).2.2.2.2.2.2.2.2.2.2.1
  funext y
  unfold iblk0
  rw [View.read_apply, cast_eq]
  refine congrArg (V c main_v40) (funext fun a => Fin.ext ?_)
  match a with
  | ⟨0, _⟩ => show win0_10.index t (0 : Fin 2) * 1 + 1 * (y 0).val = (y 0).val; rw [hi.1]; omega
  | ⟨1, _⟩ => show win0_10.index t (1 : Fin 2) * 128 + 1 * (y 1).val = (y 1).val; rw [hi.2]; omega

/-- Window 11's block at any point is its whole array. -/
theorem E_blk11 (c : Dev nD) (t : Fin cfg0.N) :
    (iblk0 (F := Ideal) V c 11 t : Vec Ideal S1x128 .f32) = V c main_arg13 := by
  have hi := (E_idx t).2.2.2.2.2.2.2.2.2.2.2.1
  funext y
  unfold iblk0
  rw [View.read_apply, cast_eq]
  refine congrArg (V c main_arg13) (funext fun a => Fin.ext ?_)
  match a with
  | ⟨0, _⟩ => show win0_11.index t (0 : Fin 2) * 1 + 1 * (y 0).val = (y 0).val; rw [hi.1]; omega
  | ⟨1, _⟩ => show win0_11.index t (1 : Fin 2) * 128 + 1 * (y 1).val = (y 1).val; rw [hi.2]; omega

/-- One stored edge feature, from the arrays: when row (q 0) of the three row blocks is row (i 0) of the three row arrays,
    the weight blocks are the weight arrays and the columns agree, the stored value at q is the edge feature of row (i 0)
    at unit (i 1). -/
theorem E_entry12 (A0 A1 : S640000x128.Idx → EReal) (A2 : S640000x3.Idx → EReal) (A3 A4 : S128x128.Idx → EReal)
    (A5 A6 : S1x128.Idx → EReal) (A7 : S128x128.Idx → EReal) (A8 : S1x128.Idx → EReal)
    (x0 x1 : Vec Ideal S4000x128 .bf16) (x2 : Vec Ideal S4000x3 .f32) (x3 x4 : Vec Ideal S128x128 .f32)
    (x5 x6 : Vec Ideal S1x128 .f32) (x7 : Vec Ideal S128x128 .f32) (x8 : Vec Ideal S1x128 .f32)
    (q : S4000x128.Idx) (i : S640000x128.Idx)
    (h0 : ∀ k, x0 (ix2 (q 0) k) = A0 (ix2 (i 0) k)) (h1 : ∀ k, x1 (ix2 (q 0) k) = A1 (ix2 (i 0) k))
    (h2 : ∀ a, x2 (ix2 (q 0) a) = A2 (ix2 (i 0) a))
    (h3 : x3 = A3) (h4 : x4 = A4) (h5 : x5 = A5) (h6 : x6 = A6) (h7 : x7 = A7) (h8 : x8 = A8)
    (hj : q 1 = i 1) :
    k0_pay2 (F := Ideal) (k0_pay5 (F := Ideal) x0 x1 x3 x4 x2 x5 x6 x7) x8 q
      = edgeFeat (fun k => A0 (ix2 (i 0) k)) (fun k => A1 (ix2 (i 0) k)) (fun a => A2 (ix2 (i 0) a))
          (fun j k => A3 (ix2 j k)) (fun j k => A4 (ix2 j k)) (fun j => A5 (ix2 0 j)) (fun j => A6 (ix2 0 j))
          (fun j k => A7 (ix2 j k)) (fun j => A8 (ix2 0 j)) (i 1) := by
  subst h3 h4 h5 h6 h7 h8
  refine (congrArg (k0_pay2 (F := Ideal) (k0_pay5 (F := Ideal) x0 x1 x3 x4 x2 x5 x6 x7) x8) (eq_ix2 q)).trans ?_
  refine (pay_edge_feat x0 x1 x2 x3 x4 x5 x6 x7 x8 (q 0) (q 1)).trans ?_
  rw [funext h0, funext h1, funext h2, hj]

/-- One stored coordinate update, from the arrays, under the same coordinate facts. -/
theorem E_entry13 (A0 A1 : S640000x128.Idx → EReal) (A2 : S640000x3.Idx → EReal) (A3 A4 : S128x128.Idx → EReal)
    (A5 A6 : S1x128.Idx → EReal) (A7 : S128x128.Idx → EReal) (A8 : S1x128.Idx → EReal)
    (A9 : S128x128.Idx → EReal) (A10 A11 : S1x128.Idx → EReal)
    (x0 x1 : Vec Ideal S4000x128 .bf16) (x2 : Vec Ideal S4000x3 .f32) (x3 x4 : Vec Ideal S128x128 .f32)
    (x5 x6 : Vec Ideal S1x128 .f32) (x7 : Vec Ideal S128x128 .f32) (x8 : Vec Ideal S1x128 .f32)
    (x9 : Vec Ideal S128x128 .f32) (x10 x11 : Vec Ideal S1x128 .f32)
    (q : S4000x3.Idx) (i : S640000x3.Idx)
    (h0 : ∀ k, x0 (ix2 (q 0) k) = A0 (ix2 (i 0) k)) (h1 : ∀ k, x1 (ix2 (q 0) k) = A1 (ix2 (i 0) k))
    (h2 : ∀ a, x2 (ix2 (q 0) a) = A2 (ix2 (i 0) a))
    (h3 : x3 = A3) (h4 : x4 = A4) (h5 : x5 = A5) (h6 : x6 = A6) (h7 : x7 = A7) (h8 : x8 = A8)
    (h9 : x9 = A9) (h10 : x10 = A10) (h11 : x11 = A11)
    (hj : q 1 = i 1) :
    k0_pay3 (F := Ideal) (k0_pay4 (F := Ideal) x2) (k0_pay5 (F := Ideal) x0 x1 x3 x4 x2 x5 x6 x7) x8 x9 x10 x11 q
      = trans (fun k => A0 (ix2 (i 0) k)) (fun k => A1 (ix2 (i 0) k)) (fun a => A2 (ix2 (i 0) a))
          (fun j k => A3 (ix2 j k)) (fun j k => A4 (ix2 j k)) (fun j => A5 (ix2 0 j)) (fun j => A6 (ix2 0 j))
          (fun j k => A7 (ix2 j k)) (fun j => A8 (ix2 0 j))
          (fun j k => A9 (ix2 j k)) (fun j => A10 (ix2 0 j)) (fun k => A11 (ix2 0 k)) (i 1) := by
  subst h3 h4 h5 h6 h7 h8 h9 h10 h11
  refine (congrArg (k0_pay3 (F := Ideal) (k0_pay4 (F := Ideal) x2) (k0_pay5 (F := Ideal) x0 x1 x3 x4 x2 x5 x6 x7) x8 x9 x10 x11)
    (eq_ix2 q)).trans ?_
  refine (pay_trans x0 x1 x2 x3 x4 x5 x6 x7 x8 x9 x10 x11 (q 0) (q 1)).trans ?_
  rw [funext h0, funext h1, funext h2, hj]

/-- What the body leaves in the edge-feature buffer, from the loaded blocks. -/
theorem E_out12 (x0 x1 : Vec Ideal S4000x128 .bf16) (x2 : Vec Ideal S4000x3 .f32) (x3 x4 : Vec Ideal S128x128 .f32)
    (x5 x6 : Vec Ideal S1x128 .f32) (x7 : Vec Ideal S128x128 .f32) (x8 : Vec Ideal S1x128 .f32)
    (x9 : Vec Ideal S128x128 .f32) (x10 x11 : Vec Ideal S1x128 .f32) :
    out0_12 (F := Ideal) x0 x1 x2 x3 x4 x5 x6 x7 x8 x9 x10 x11
      = k0_pay2 (F := Ideal) (k0_pay5 (F := Ideal) x0 x1 x3 x4 x2 x5 x6 x7) x8 := by
  unfold out0_12
  rw [View.canon_unit_zero E_hz]
  simp only [View.ld_unit_zero (S := S4000x128) E_hz, View.ld_unit_zero (S := S128x128) E_hz,
    View.ld_unit_zero (S := S4000x3) E_hz, View.ld_unit_zero (S := S1x128) E_hz]

/-- What the body leaves in the coordinate-update buffer, from the loaded blocks. -/
theorem E_out13 (x0 x1 : Vec Ideal S4000x128 .bf16) (x2 : Vec Ideal S4000x3 .f32) (x3 x4 : Vec Ideal S128x128 .f32)
    (x5 x6 : Vec Ideal S1x128 .f32) (x7 : Vec Ideal S128x128 .f32) (x8 : Vec Ideal S1x128 .f32)
    (x9 : Vec Ideal S128x128 .f32) (x10 x11 : Vec Ideal S1x128 .f32) :
    out0_13 (F := Ideal) x0 x1 x2 x3 x4 x5 x6 x7 x8 x9 x10 x11
      = k0_pay3 (F := Ideal) (k0_pay4 (F := Ideal) x2) (k0_pay5 (F := Ideal) x0 x1 x3 x4 x2 x5 x6 x7) x8 x9 x10 x11 := by
  unfold out0_13
  rw [View.canon_unit_zero E_hz]
  simp only [View.ld_unit_zero (S := S4000x128) E_hz, View.ld_unit_zero (S := S128x128) E_hz,
    View.ld_unit_zero (S := S4000x3) E_hz, View.ld_unit_zero (S := S1x128) E_hz]

/-- The edge-feature array as one function of the region-entry arrays: at (e, j), the edge feature of row e at unit j. -/
def E_G12 (c : Dev nD) : S640000x128.Idx → EReal := fun i =>
  edgeFeat (fun k => V c main_v11 (ix2 (i 0) k)) (fun k => V c main_v18 (ix2 (i 0) k)) (fun a => V c main_v33 (ix2 (i 0) a))
    (fun j k => V c main_v34 (ix2 j k)) (fun j k => V c main_v35 (ix2 j k)) (fun j => V c main_v37 (ix2 0 j))
    (fun j => V c main_v38 (ix2 0 j)) (fun j k => V c main_arg5 (ix2 j k)) (fun j => V c main_v39 (ix2 0 j)) (i 1)

/-- What point t writes back into the edge-feature array is block t of that function. -/
theorem E_flushed12 (c : Dev nD) (t : Fin cfg0.N) :
    (dat0 (F := Ideal) V c).flushed 12 t = ((cfg0.win 12).blk t).view.read (Elt Ideal) (E_G12 V c) := by
  show (cfg0.win 12).cut (grid0.coords t) ((dat0 (F := Ideal) V c).after 12 t) = _
  rw [after0_12, E_out12]
  have hi := (E_idx t).2.2.2.2.2.2.2.2.2.2.2.2.1
  funext y
  rw [View.read_apply, cast_eq]
  have he : ((((cfg0.win 12).blk t).view.emb y) 0).val = 4000 * t.val + (y 0).val := by
    show win0_12.index t (0 : Fin 2) * 4000 + 1 * (y 0).val = _
    rw [hi.1]; omega
  have hj : (cfg0.win 12).xinj (grid0.coords t) y 1 = (((cfg0.win 12).blk t).view.emb y) 1 := Fin.ext (by
    show (y 1).val = win0_12.index t (1 : Fin 2) * 128 + 1 * (y 1).val
    rw [hi.2]; omega)
  exact E_entry12 (V c main_v11) (V c main_v18) (V c main_v33) (V c main_v34) (V c main_v35) (V c main_v37) (V c main_v38)
    (V c main_arg5) (V c main_v39)
    (iblk0 (F := Ideal) V c 0 t) (iblk0 (F := Ideal) V c 1 t) (iblk0 (F := Ideal) V c 2 t) (iblk0 (F := Ideal) V c 3 t)
    (iblk0 (F := Ideal) V c 4 t) (iblk0 (F := Ideal) V c 5 t) (iblk0 (F := Ideal) V c 6 t) (iblk0 (F := Ideal) V c 7 t)
    (iblk0 (F := Ideal) V c 8 t)
    ((cfg0.win 12).xinj (grid0.coords t) y) (((cfg0.win 12).blk t).view.emb y)
    (fun k => E_blk0 V c t _ k _ he) (fun k => E_blk1 V c t _ k _ he) (fun a => E_blk2 V c t _ a _ he)
    (E_blk3 V c t) (E_blk4 V c t) (E_blk5 V c t) (E_blk6 V c t) (E_blk7 V c t) (E_blk8 V c t) hj

/-- An index of the edge-feature array is in point t's block iff each coordinate is in the block's range. -/
theorem E_mem_blk12 (t : Fin cfg0.N) (i : S640000x128.Idx) :
    i ∈ ((cfg0.win 12).blk t).view.set
      ↔ ∀ a : Fin 2, win0_12.index t a * S4000x128.size a ≤ (i a).val
          ∧ (i a).val < win0_12.index t a * S4000x128.size a + S4000x128.size a := by
  show i ∈ ((View.whole main_v43_0).slice (win0_12.rect t)).set ↔ _
  rw [View.set_slice_whole, Rect.mem_set_unit]
  exact Iff.rfl

/-- Every row e is in the block of point e / 4000, which writes back. -/
theorem E_cover12 (i : S640000x128.Idx) :
    ∃ t : Fin cfg0.N, (cfg0.win 12).flush t = true ∧ i ∈ ((cfg0.win 12).blk t).view.set := by
  have h0 : (i 0).val < 640000 := (i 0).isLt
  have h1 : (i 1).val < 128 := (i 1).isLt
  have hN : cfg0.N = 160 := N_0
  let t : Fin cfg0.N := ⟨(i 0).val / 4000, by rw [hN]; omega⟩
  have hi := (E_idx t).2.2.2.2.2.2.2.2.2.2.2.2.1
  refine ⟨t, flush0_12 t, ?_⟩
  rw [E_mem_blk12]
  intro a
  match a with
  | ⟨0, _⟩ =>
    show win0_12.index t (0 : Fin 2) * 4000 ≤ (i 0).val ∧ (i 0).val < win0_12.index t (0 : Fin 2) * 4000 + 4000
    rw [hi.1]
    show (i 0).val / 4000 * 4000 ≤ (i 0).val ∧ (i 0).val < (i 0).val / 4000 * 4000 + 4000
    omega
  | ⟨1, _⟩ =>
    show win0_12.index t (1 : Fin 2) * 128 ≤ (i 1).val ∧ (i 1).val < win0_12.index t (1 : Fin 2) * 128 + 128
    rw [hi.2]; omega

/-- The edge-feature array after the region is that function. -/
theorem E_final12 (c : Dev nD) : (dat0 (F := Ideal) V c).arrAt 12 cfg0.N = E_G12 V c :=
  (dat0 (F := Ideal) V c).arrAt_eq_of_cover 12 (E_G12 V c) (fun t _ => E_flushed12 V c t) E_cover12

/-- The coordinate-update array as one function of the region-entry arrays: at (e, a), the update of row e at axis a. -/
def E_G13 (c : Dev nD) : S640000x3.Idx → EReal := fun i =>
  trans (fun k => V c main_v11 (ix2 (i 0) k)) (fun k => V c main_v18 (ix2 (i 0) k)) (fun a => V c main_v33 (ix2 (i 0) a))
    (fun j k => V c main_v34 (ix2 j k)) (fun j k => V c main_v35 (ix2 j k)) (fun j => V c main_v37 (ix2 0 j))
    (fun j => V c main_v38 (ix2 0 j)) (fun j k => V c main_arg5 (ix2 j k)) (fun j => V c main_v39 (ix2 0 j))
    (fun j k => V c main_arg11 (ix2 j k)) (fun j => V c main_v40 (ix2 0 j)) (fun k => V c main_arg13 (ix2 0 k)) (i 1)

/-- What point t writes back into the coordinate-update array is block t of that function. -/
theorem E_flushed13 (c : Dev nD) (t : Fin cfg0.N) :
    (dat0 (F := Ideal) V c).flushed 13 t = ((cfg0.win 13).blk t).view.read (Elt Ideal) (E_G13 V c) := by
  show (cfg0.win 13).cut (grid0.coords t) ((dat0 (F := Ideal) V c).after 13 t) = _
  rw [after0_13, E_out13]
  have hi := (E_idx t).2.2.2.2.2.2.2.2.2.2.2.2.2
  funext y
  rw [View.read_apply, cast_eq]
  have he : ((((cfg0.win 13).blk t).view.emb y) 0).val = 4000 * t.val + (y 0).val := by
    show win0_13.index t (0 : Fin 2) * 4000 + 1 * (y 0).val = _
    rw [hi.1]; omega
  have hj : (cfg0.win 13).xinj (grid0.coords t) y 1 = (((cfg0.win 13).blk t).view.emb y) 1 := Fin.ext (by
    show (y 1).val = win0_13.index t (1 : Fin 2) * 3 + 1 * (y 1).val
    rw [hi.2]; omega)
  exact E_entry13 (V c main_v11) (V c main_v18) (V c main_v33) (V c main_v34) (V c main_v35) (V c main_v37) (V c main_v38)
    (V c main_arg5) (V c main_v39) (V c main_arg11) (V c main_v40) (V c main_arg13)
    (iblk0 (F := Ideal) V c 0 t) (iblk0 (F := Ideal) V c 1 t) (iblk0 (F := Ideal) V c 2 t) (iblk0 (F := Ideal) V c 3 t)
    (iblk0 (F := Ideal) V c 4 t) (iblk0 (F := Ideal) V c 5 t) (iblk0 (F := Ideal) V c 6 t) (iblk0 (F := Ideal) V c 7 t)
    (iblk0 (F := Ideal) V c 8 t) (iblk0 (F := Ideal) V c 9 t) (iblk0 (F := Ideal) V c 10 t) (iblk0 (F := Ideal) V c 11 t)
    ((cfg0.win 13).xinj (grid0.coords t) y) (((cfg0.win 13).blk t).view.emb y)
    (fun k => E_blk0 V c t _ k _ he) (fun k => E_blk1 V c t _ k _ he) (fun a => E_blk2 V c t _ a _ he)
    (E_blk3 V c t) (E_blk4 V c t) (E_blk5 V c t) (E_blk6 V c t) (E_blk7 V c t) (E_blk8 V c t)
    (E_blk9 V c t) (E_blk10 V c t) (E_blk11 V c t) hj

/-- An index of the coordinate-update array is in point t's block iff each coordinate is in the block's range. -/
theorem E_mem_blk13 (t : Fin cfg0.N) (i : S640000x3.Idx) :
    i ∈ ((cfg0.win 13).blk t).view.set
      ↔ ∀ a : Fin 2, win0_13.index t a * S4000x3.size a ≤ (i a).val
          ∧ (i a).val < win0_13.index t a * S4000x3.size a + S4000x3.size a := by
  show i ∈ ((View.whole main_v43_1).slice (win0_13.rect t)).set ↔ _
  rw [View.set_slice_whole, Rect.mem_set_unit]
  exact Iff.rfl

/-- Every row e is in the block of point e / 4000, which writes back. -/
theorem E_cover13 (i : S640000x3.Idx) :
    ∃ t : Fin cfg0.N, (cfg0.win 13).flush t = true ∧ i ∈ ((cfg0.win 13).blk t).view.set := by
  have h0 : (i 0).val < 640000 := (i 0).isLt
  have h1 : (i 1).val < 3 := (i 1).isLt
  have hN : cfg0.N = 160 := N_0
  let t : Fin cfg0.N := ⟨(i 0).val / 4000, by rw [hN]; omega⟩
  have hi := (E_idx t).2.2.2.2.2.2.2.2.2.2.2.2.2
  refine ⟨t, flush0_13 t, ?_⟩
  rw [E_mem_blk13]
  intro a
  match a with
  | ⟨0, _⟩ =>
    show win0_13.index t (0 : Fin 2) * 4000 ≤ (i 0).val ∧ (i 0).val < win0_13.index t (0 : Fin 2) * 4000 + 4000
    rw [hi.1]
    show (i 0).val / 4000 * 4000 ≤ (i 0).val ∧ (i 0).val < (i 0).val / 4000 * 4000 + 4000
    omega
  | ⟨1, _⟩ =>
    show win0_13.index t (1 : Fin 2) * 3 ≤ (i 1).val ∧ (i 1).val < win0_13.index t (1 : Fin 2) * 3 + 3
    rw [hi.2]; omega

/-- The coordinate-update array after the region is that function. -/
theorem E_final13 (c : Dev nD) : (dat0 (F := Ideal) V c).arrAt 13 cfg0.N = E_G13 V c :=
  (dat0 (F := Ideal) V c).arrAt_eq_of_cover 13 (E_G13 V c) (fun t _ => E_flushed13 V c t) E_cover13

/-- The edge-feature array after the region, at (e, j). -/
theorem edge_feat_arr (c : Dev nD) (e : Fin 640000) (j : Fin 128) :
    (dat0 (F := Ideal) V c).arrAt 12 cfg0.N (ix2 e j)
      = edgeFeat (fun k => V c main_v11 (ix2 e k)) (fun k => V c main_v18 (ix2 e k)) (fun a => V c main_v33 (ix2 e a))
          (fun j k => V c main_v34 (ix2 j k)) (fun j k => V c main_v35 (ix2 j k)) (fun j => V c main_v37 (ix2 0 j))
          (fun j => V c main_v38 (ix2 0 j)) (fun j k => V c main_arg5 (ix2 j k)) (fun j => V c main_v39 (ix2 0 j)) j :=
  congrFun (E_final12 V c) (ix2 e j)

/-- The coordinate-update array after the region, at (e, a). -/
theorem trans_arr (c : Dev nD) (e : Fin 640000) (a : Fin 3) :
    (dat0 (F := Ideal) V c).arrAt 13 cfg0.N (ix2 e a)
      = trans (fun k => V c main_v11 (ix2 e k)) (fun k => V c main_v18 (ix2 e k)) (fun a => V c main_v33 (ix2 e a))
          (fun j k => V c main_v34 (ix2 j k)) (fun j k => V c main_v35 (ix2 j k)) (fun j => V c main_v37 (ix2 0 j))
          (fun j => V c main_v38 (ix2 0 j)) (fun j k => V c main_arg5 (ix2 j k)) (fun j => V c main_v39 (ix2 0 j))
          (fun j k => V c main_arg11 (ix2 j k)) (fun j => V c main_v40 (ix2 0 j)) (fun k => V c main_arg13 (ix2 0 k)) a :=
  congrFun (E_final13 V c) (ix2 e a)

end Cert.KernelIdeal.EdgeValue

end
-- ==== Proof.KNodePay.lean ====
/-
  The node kernel's stored value at an index. With the loaded blocks as variables — 4000 rows of node features and of
  aggregated edge features, and the whole weight blocks — entry (r, j) of the value stored into the output block is the
  node row function of Spec.lean applied to row r of the two row blocks and to the weights read as (output unit, input unit).
-/
import proofs.«137929_j9320079032381_2_alg».proof.Proof.Gen.KernelIdeal.Skeleton
import proofs.«137929_j9320079032381_2_alg».proof.Proof.Spec
import proofs.«137929_j9320079032381_2_alg».proof.Proof.LibPlainDot
import proofs.«137929_j9320079032381_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NodeValue

open Cert.KernelIdeal Cert.KernelIdeal.Gen Idealize.ShloMosaic Idealize.ShloMosaic.ValueIdx Idealize.SL.Sem Cert.EGcl

/-- A row block times the transpose of a weight block, into the zero accumulator, at (r, j): the inner product of
    row r of the block with row j of the weight (the weight read as (output unit, input unit)). The two rows are
    named by the caller (`a`, `b`), so that a block that went through an identity cast is read as the block itself. -/
theorem N_matmulT_apply {φ₁ φ₂ : FTy} (l : FVec Ideal S4000x128 φ₁) (W : FVec Ideal S128x128 φ₂)
    (h : S128x128.Transposes [1, 0] S128x128) (r : Fin 4000) (j : Fin 128) (a b : Fin 128 → EReal)
    (ha : ∀ k : Fin 128, l (ix2 r k) = a k) (hb : ∀ k : Fin 128, W (ix2 j k) = b k) :
    matmul dot_S4000x128_S128x128_S4000x128_1_0_0_1_n_n none l (transpose S128x128 [1, 0] W h)
        (constant (F := Ideal) S4000x128 .f32 0x00000000#32) (ix2 r j)
      = ∑ k : Fin 128, a k * b k :=
  (Cert.PlainDot.matmul_zero_apply 4000 128 128 none l (transpose S128x128 [1, 0] W h) (ix2 r j)).trans
    (Finset.sum_congr rfl fun k _ =>
      congrArg₂ (fun y z : EReal => y * z) (ha k) ((transpose_ix2_apply W h k j).trans (hb k)))

/-- A bias row, cast to its own shape and broadcast over the 4000 rows, reads at (r, j) the row's entry j. -/
theorem N_row_bcast_apply (b : Vec Ideal S1x128 .f32) (hc : S1x128.ShapeCasts S1x128) (hb : S1x128.Broadcasts S4000x128)
    (r : Fin 4000) (j : Fin 128) :
    broadcastTo S4000x128 (shapeCast S1x128 b hc) hb (ix2 r j) = b (ix2 0 j) :=
  (broadcastTo_1b_ab_apply (shapeCast S1x128 b hc) hb r j).trans (congrFun (shapeCast_self b hc) (ix2 0 j))

/-- x · σ(x) entrywise is the activation of the entry. -/
theorem N_silu_apply {s : Shape} (x : FVec Ideal s .f32) (i : s.Idx) : mulf x (logistic x) i = silu (x i) := rfl

/-- The value stored into the node-output block, at (r, j). -/
theorem pay_node (x0 x1 : Vec Ideal S4000x128 .f32) (x2 x3 : Vec Ideal S128x128 .f32) (x4 : Vec Ideal S1x128 .f32)
    (x5 : Vec Ideal S128x128 .f32) (x6 : Vec Ideal S1x128 .f32) (r : Fin 4000) (j : Fin 128) :
    k1_pay1 (F := Ideal) x0 x1 x2 x3 x4 x5 x6 (ix2 r j)
      = nodeOut (fun k => x0 (ix2 r k)) (fun k => x1 (ix2 r k))
          (fun j k => x2 (ix2 j k)) (fun j k => x3 (ix2 j k)) (fun j => x4 (ix2 0 j))
          (fun j k => x5 (ix2 j k)) (fun j => x6 (ix2 0 j)) j := by
  unfold k1_pay1 nodeOut
  -- the residual, plus (third product + second bias)
  refine (addf_apply _ _ _).trans (congrArg (fun z : EReal => x0 (ix2 r j) + z) ?_)
  refine (addf_apply _ _ _).trans (congrArg₂ (fun y z : EReal => y + z) ?_ (N_row_bcast_apply x6 _ _ r j))
  -- the third product: over the hidden units k, the activation of the hidden pre-activation times the weight
  refine N_matmulT_apply _ _ _ r j _ _ (fun k => ?_) (fun k => rfl)
  refine (N_silu_apply _ (ix2 r k)).trans (congrArg silu ?_)
  -- the hidden pre-activation: the two halves of the first linear map, plus its bias
  refine (addf_apply _ _ _).trans (congrArg₂ (fun y z : EReal => y + z) ?_ (N_row_bcast_apply x4 _ _ r k))
  refine (addf_apply _ _ _).trans (congrArg₂ (fun y z : EReal => y + z) ?_ ?_)
  · exact N_matmulT_apply _ _ _ r k _ _ (fun l => rfl) (fun l => congrFun (shapeCast_self x2 _) (ix2 k l))
  · exact N_matmulT_apply _ _ _ r k _ _ (fun l => congrFun (shapeCast_self x1 _) (ix2 r l))
      (fun l => congrFun (shapeCast_self x3 _) (ix2 k l))

end Cert.KernelIdeal.NodeValue

end
-- ==== Proof.KNode.lean ====
/-
  The node region's output array, from the contents V its input arrays hold when the region is entered. The grid has 5
  points; point t handles rows 4000·t … 4000·t + 3999 of the node features, of the aggregated edge features and of the
  output, and the whole of every weight array. Block t of the output, as written back, is the restriction to those rows
  of the node row function of Spec.lean applied to row n of the two row arrays; the 5 blocks cover the 20000 rows.
-/
import proofs.«137929_j9320079032381_2_alg».proof.Proof.KernelIdealFrameP
import proofs.«137929_j9320079032381_2_alg».proof.Proof.KNodePay
import proofs.«137929_j9320079032381_2_alg».proof.Proof.Spec
import Idealize.ShloMosaic.Lib.ValueIdx
import Idealize.ShloMosaic.Lib.Pipeline.Value
import Idealize.ShloMosaic.PureOps.Ideal.Laws

noncomputable section

namespace Cert.KernelIdeal.NodeValue

open Cert.KernelIdeal Cert.KernelIdeal.Gen Cert.KernelIdeal.GenP Idealize.ShloMosaic Idealize.ShloMosaic.TcCoe Idealize.ShloMosaic.ValueIdx Idealize.SL.Sem Cert.EGcl

variable (V : (c : Dev nD) → (b : Ref sig .tc) → Buf (Elt Ideal) ((c : Thread nD τ).loc b))

/-- The node row function on whole arrays: entry (n, j) from row n of the two row arrays and the weight arrays. -/
def N_G (A0 A1 : S20000x128.Idx → EReal) (B2 B3 : S128x128.Idx → EReal) (b4 : S1x128.Idx → EReal)
    (B5 : S128x128.Idx → EReal) (b6 : S1x128.Idx → EReal) : S20000x128.Idx → EReal := fun i =>
  nodeOut (fun k => A0 (ix2 (i 0) k)) (fun k => A1 (ix2 (i 0) k)) (fun j k => B2 (ix2 j k)) (fun j k => B3 (ix2 j k))
    (fun j => b4 (ix2 0 j)) (fun j k => B5 (ix2 j k)) (fun j => b6 (ix2 0 j)) (i 1)

theorem N_hz : (![0, 0] : Fin 2 → Nat) = fun _ => 0 := funext fun a => by fin_cases a <;> rfl

/-- The index maps, decided over the 5 grid points: the three row windows sit at block (t, 0), the weight windows
    at block (0, 0). -/
theorem N_index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_7.index t (0 : Fin 2) = t.val ∧ win1_7.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-- Every point writes its output block back. -/
theorem N_flush : ∀ t : Fin cfg1.N, (cfg1.win 7).flush t = true :=
  (by decide +kernel : ∀ t : Fin grid1.N, _)

/-- An index of the output array is in point t's block iff each coordinate is in the block's range on its axis. -/
theorem N_mem_blk (t : Fin cfg1.N) (i : S20000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v54).slice (win1_7.rect t)).set ↔ _
  rw [View.set_slice_whole, Rect.mem_set_unit]
  exact Iff.rfl

/-- Row-block reads: block t of a row array at (r, k) is the array at (4000·t + r, k); a weight window's block is the
    whole weight array. The array's index is named by the caller, its coordinates given as equations of numbers. -/
theorem N_blk0 (c : Dev nD) (t : Fin cfg1.N) (x : S4000x128.Idx) (k : S20000x128.Idx)
    (hk0 : (k 0).val = 4000 * t.val + (x 0).val) (hk1 : (k 1).val = (x 1).val) :
    (iblk1 V c 0 t : Vec Ideal S4000x128 .f32) x = (V c main_arg0 : S20000x128.Idx → EReal) k := by
  obtain ⟨⟨e0, e1⟩, -⟩ := N_index_facts t
  unfold iblk1
  rw [View.read_apply]
  show (V c main_arg0 : S20000x128.Idx → EReal) _ = _
  congr 1
  funext a
  apply Fin.ext
  match a with
  | ⟨0, _⟩ => show win1_0.index t 0 * 4000 + 1 * (x 0).val = (k 0).val; rw [e0, hk0]; omega
  | ⟨1, _⟩ => show win1_0.index t 1 * 128 + 1 * (x 1).val = (k 1).val; rw [e1, hk1]; omega

theorem N_blk1 (c : Dev nD) (t : Fin cfg1.N) (x : S4000x128.Idx) (k : S20000x128.Idx)
    (hk0 : (k 0).val = 4000 * t.val + (x 0).val) (hk1 : (k 1).val = (x 1).val) :
    (iblk1 V c 1 t : Vec Ideal S4000x128 .f32) x = (V c main_v47 : S20000x128.Idx → EReal) k := by
  obtain ⟨-, ⟨e0, e1⟩, -⟩ := N_index_facts t
  unfold iblk1
  rw [View.read_apply]
  show (V c main_v47 : S20000x128.Idx → EReal) _ = _
  congr 1
  funext a
  apply Fin.ext
  match a with
  | ⟨0, _⟩ => show win1_1.index t 0 * 4000 + 1 * (x 0).val = (k 0).val; rw [e0, hk0]; omega
  | ⟨1, _⟩ => show win1_1.index t 1 * 128 + 1 * (x 1).val = (k 1).val; rw [e1, hk1]; omega

theorem N_blk2 (c : Dev nD) (t : Fin cfg1.N) (x : S128x128.Idx) :
    (iblk1 V c 2 t : Vec Ideal S128x128 .f32) x = (V c main_v52 : S128x128.Idx → EReal) x := by
  obtain ⟨-, -, -, ⟨e0, e1⟩, -⟩ := N_index_facts t
  unfold iblk1
  rw [View.read_apply]
  show (V c main_v52 : S128x128.Idx → EReal) _ = _
  congr 1
  funext a
  apply Fin.ext
  match a with
  | ⟨0, _⟩ => show win1_2.index t 0 * 128 + 1 * (x 0).val = (x 0).val; rw [e0]; omega
  | ⟨1, _⟩ => show win1_2.index t 1 * 128 + 1 * (x 1).val = (x 1).val; rw [e1]; omega

theorem N_blk3 (c : Dev nD) (t : Fin cfg1.N) (x : S128x128.Idx) :
    (iblk1 V c 3 t : Vec Ideal S128x128 .f32) x = (V c main_v53 : S128x128.Idx → EReal) x := by
  obtain ⟨-, -, -, -, ⟨e0, e1⟩, -⟩ := N_index_facts t
  unfold iblk1
  rw [View.read_apply]
  show (V c main_v53 : S128x128.Idx → EReal) _ = _
  congr 1
  funext a
  apply Fin.ext
  match a with
  | ⟨0, _⟩ => show win1_3.index t 0 * 128 + 1 * (x 0).val = (x 0).val; rw [e0]; omega
  | ⟨1, _⟩ => show win1_3.index t 1 * 128 + 1 * (x 1).val = (x 1).val; rw [e1]; omega

theorem N_blk4 (c : Dev nD) (t : Fin cfg1.N) (x : S1x128.Idx) :
    (iblk1 V c 4 t : Vec Ideal S1x128 .f32) x = (V c main_v41 : S1x128.Idx → EReal) x := by
  obtain ⟨-, -, -, -, -, ⟨e0, e1⟩, -⟩ := N_index_facts t
  unfold iblk1
  rw [View.read_apply]
  show (V c main_v41 : S1x128.Idx → EReal) _ = _
  congr 1
  funext a
  apply Fin.ext
  match a with
  | ⟨0, _⟩ => show win1_4.index t 0 * 1 + 1 * (x 0).val = (x 0).val; rw [e0]; omega
  | ⟨1, _⟩ => show win1_4.index t 1 * 128 + 1 * (x 1).val = (x 1).val; rw [e1]; omega

theorem N_blk5 (c : Dev nD) (t : Fin cfg1.N) (x : S128x128.Idx) :
    (iblk1 V c 5 t : Vec Ideal S128x128 .f32) x = (V c main_arg9 : S128x128.Idx → EReal) x := by
  obtain ⟨-, -, -, -, -, -, ⟨e0, e1⟩, -⟩ := N_index_facts t
  unfold iblk1
  rw [View.read_apply]
  show (V c main_arg9 : S128x128.Idx → EReal) _ = _
  congr 1
  funext a
  apply Fin.ext
  match a with
  | ⟨0, _⟩ => show win1_5.index t 0 * 128 + 1 * (x 0).val = (x 0).val; rw [e0]; omega
  | ⟨1, _⟩ => show win1_5.index t 1 * 128 + 1 * (x 1).val = (x 1).val; rw [e1]; omega

theorem N_blk6 (c : Dev nD) (t : Fin cfg1.N) (x : S1x128.Idx) :
    (iblk1 V c 6 t : Vec Ideal S1x128 .f32) x = (V c main_v42 : S1x128.Idx → EReal) x := by
  obtain ⟨-, -, -, -, -, -, -, ⟨e0, e1⟩⟩ := N_index_facts t
  unfold iblk1
  rw [View.read_apply]
  show (V c main_v42 : S1x128.Idx → EReal) _ = _
  congr 1
  funext a
  apply Fin.ext
  match a with
  | ⟨0, _⟩ => show win1_6.index t 0 * 1 + 1 * (x 0).val = (x 0).val; rw [e0]; omega
  | ⟨1, _⟩ => show win1_6.index t 1 * 128 + 1 * (x 1).val = (x 1).val; rw [e1]; omega

/-- The stored value at (r, q) over variable blocks and arrays: when row r of the two row blocks is row (i 0) of the
    two row arrays, the weight blocks are the weight arrays and q is the column (i 1), it is the node row function of
    the arrays at i. -/
theorem N_point (x0 x1 : Vec Ideal S4000x128 .f32) (x2 x3 : Vec Ideal S128x128 .f32) (x4 : Vec Ideal S1x128 .f32)
    (x5 : Vec Ideal S128x128 .f32) (x6 : Vec Ideal S1x128 .f32)
    (A0 A1 : S20000x128.Idx → EReal) (B2 B3 : S128x128.Idx → EReal) (b4 : S1x128.Idx → EReal)
    (B5 : S128x128.Idx → EReal) (b6 : S1x128.Idx → EReal)
    (r : Fin 4000) (q : Fin 128) (i : S20000x128.Idx) (hq : (i 1).val = q.val)
    (h0 : ∀ k : Fin 128, x0 (ix2 r k) = A0 (ix2 (i 0) k)) (h1 : ∀ k : Fin 128, x1 (ix2 r k) = A1 (ix2 (i 0) k))
    (h2 : ∀ y, x2 y = B2 y) (h3 : ∀ y, x3 y = B3 y) (h4 : ∀ y, x4 y = b4 y) (h5 : ∀ y, x5 y = B5 y) (h6 : ∀ y, x6 y = b6 y) :
    k1_pay1 (F := Ideal) x0 x1 x2 x3 x4 x5 x6 (ix2 r q) = N_G A0 A1 B2 B3 b4 B5 b6 i := by
  obtain rfl : x2 = B2 := funext h2
  obtain rfl : x3 = B3 := funext h3
  obtain rfl : x4 = b4 := funext h4
  obtain rfl : x5 = B5 := funext h5
  obtain rfl : x6 = b6 := funext h6
  have e0 : (fun k : Fin 128 => x0 (ix2 r k)) = fun k => A0 (ix2 (i 0) k) := funext h0
  have e1 : (fun k : Fin 128 => x1 (ix2 r k)) = fun k => A1 (ix2 (i 0) k) := funext h1
  have eq : q = (i 1 : Fin 128) := Fin.ext hq.symm
  refine (pay_node x0 x1 x2 x3 x4 x5 x6 r q).trans ?_
  unfold N_G
  rw [e0, e1, eq]

/-- What point t writes back is block t of the node row function of the arrays as the region finds them. -/
theorem N_flushed_eq (c : Dev nD) (t : Fin cfg1.N) :
    (dat1 (F := Ideal) V c).flushed 7 t
      = ((cfg1.win 7).blk t).view.read (Elt Ideal)
          (N_G (V c main_arg0) (V c main_v47) (V c main_v52) (V c main_v53) (V c main_v41) (V c main_arg9) (V c main_v42)) := by
  show (cfg1.win 7).cut (grid1.coords t) ((dat1 V c).after 7 t) = _
  rw [after1_7]
  unfold out1_7
  rw [View.canon_unit_zero N_hz]
  simp only [View.ld_unit_zero (S := S4000x128) N_hz, View.ld_unit_zero (S := S128x128) N_hz, View.ld_unit_zero (S := S1x128) N_hz]
  obtain ⟨-, -, ⟨e0, e1⟩, -⟩ := N_index_facts t
  funext y
  rw [View.read_apply, cast_eq]
  -- the block's index as a pair of literal coordinates
  have hy0 : (y 0).val < 4000 := (y 0).isLt
  have hy1 : (y 1).val < 128 := (y 1).isLt
  have hx : (cfg1.win 7).xinj (grid1.coords t) y = ix2 (⟨(y 0).val, hy0⟩ : Fin 4000) (⟨(y 1).val, hy1⟩ : Fin 128) :=
    funext (Fin.forall_fin_two.mpr ⟨rfl, rfl⟩)
  refine (congrArg (k1_pay1 (F := Ideal) (iblk1 V c 0 t) (iblk1 V c 1 t) (iblk1 V c 2 t) (iblk1 V c 3 t) (iblk1 V c 4 t)
    (iblk1 V c 5 t) (iblk1 V c 6 t)) hx).trans ?_
  refine N_point (iblk1 V c 0 t) (iblk1 V c 1 t) (iblk1 V c 2 t) (iblk1 V c 3 t) (iblk1 V c 4 t) (iblk1 V c 5 t) (iblk1 V c 6 t)
    (V c main_arg0) (V c main_v47) (V c main_v52) (V c main_v53) (V c main_v41) (V c main_arg9) (V c main_v42)
    ⟨(y 0).val, hy0⟩ ⟨(y 1).val, hy1⟩ (((cfg1.win 7).blk t).view.emb y) ?_ (fun k => ?_) (fun k => ?_)
    (N_blk2 V c t) (N_blk3 V c t) (N_blk4 V c t) (N_blk5 V c t) (N_blk6 V c t)
  · show win1_7.index t 1 * 128 + 1 * (y 1).val = (y 1).val
    rw [e1]; omega
  · refine N_blk0 V c t _ _ ?_ rfl
    show win1_7.index t 0 * 4000 + 1 * (y 0).val = 4000 * t.val + (y 0).val
    rw [e0]; omega
  · refine N_blk1 V c t _ _ ?_ rfl
    show win1_7.index t 0 * 4000 + 1 * (y 0).val = 4000 * t.val + (y 0).val
    rw [e0]; omega

/-- The 5 blocks cover the 20000 rows: row n is in the block of point n / 4000. -/
theorem N_cover (i : S20000x128.Idx) :
    ∃ t : Fin cfg1.N, (cfg1.win 7).flush t = true ∧ i ∈ ((cfg1.win 7).blk t).view.set := by
  have hi0 : (i 0).val < 20000 := (i 0).isLt
  have hi1 : (i 1).val < 128 := (i 1).isLt
  have hN : cfg1.N = 5 := N_1
  obtain ⟨t, ht⟩ : ∃ t : Fin cfg1.N, t.val = (i 0).val / 4000 := ⟨⟨(i 0).val / 4000, by rw [hN]; omega⟩, rfl⟩
  refine ⟨t, N_flush t, ?_⟩
  obtain ⟨-, -, ⟨e0, e1⟩, -⟩ := N_index_facts t
  rw [N_mem_blk]
  intro a
  match a with
  | ⟨0, _⟩ =>
    show win1_7.index t 0 * 4000 ≤ (i 0).val ∧ (i 0).val < win1_7.index t 0 * 4000 + 4000
    rw [e0, ht]; omega
  | ⟨1, _⟩ =>
    show win1_7.index t 1 * 128 ≤ (i 1).val ∧ (i 1).val < win1_7.index t 1 * 128 + 128
    rw [e1]; omega

/-- The node-output array after the region, at (n, j). -/
theorem node_arr (c : Dev nD) (n : Fin 20000) (j : Fin 128) :
    (dat1 (F := Ideal) V c).arrAt 7 cfg1.N (ix2 n j)
      = nodeOut (fun k => V c main_arg0 (ix2 n k)) (fun k => V c main_v47 (ix2 n k))
          (fun j k => V c main_v52 (ix2 j k)) (fun j k => V c main_v53 (ix2 j k)) (fun j => V c main_v41 (ix2 0 j))
          (fun j k => V c main_arg9 (ix2 j k)) (fun j => V c main_v42 (ix2 0 j)) j := by
  have h := (dat1 (F := Ideal) V c).arrAt_eq_of_cover 7
    (N_G (V c main_arg0) (V c main_v47) (V c main_v52) (V c main_v53) (V c main_v41) (V c main_arg9) (V c main_v42))
    (fun t _ => N_flushed_eq V c t) N_cover
  exact congrFun h (ix2 n j)

end Cert.KernelIdeal.NodeValue

end
-- ==== Proof.RefEdgeAux.lean ====
/-
  The reference's edge stages, one stage at a time at an index (ideal instance: every float an extended real).

  Row e of the edge input is the concatenation (source features, target features, squared distance); the first linear
  map contracts it with the transposed 128 × 257 weight matrix, so its sum over 257 columns regroups into the three
  parts ∑ₖ hs k · W j k + ∑ₖ hd k · W j (128 + k) + ‖cd‖² · W j 256. Every later stage is a pointwise operation, a
  broadcast of a bias row, or a contraction over 128 columns with a transposed square matrix; the activation
  x · (1 / (1 + e⁻ˣ)) is `silu`. The gathered rows and the coordinate differences are never opened: they enter only
  through their entries at an index.
-/
import proofs.«137929_j9320079032381_2_alg».proof.Proof.Gen.ReferenceIdeal.Read
import proofs.«137929_j9320079032381_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Idealize.SL.Sem Cert.EGcl

/-- The pattern of the float 1.0 denotes the extended real 1. -/
theorem R_one : Ideal.ofBits .f32 0x3F800000#32 = (1 : EReal) := by
  simp [Ideal.ofBits, Ideal.ieee, -EReal.coe_mul]; norm_num

section Cat
variable (hs hd : (⟨S640000x128, .f32⟩ : BufTy).Contents (Elt Ideal)) (r : (⟨S640000x1, .f32⟩ : BufTy).Contents (Elt Ideal))

/-- The three-piece concatenation along axis 1 at a column of the first piece. -/
theorem R_cat_fst (e : Fin 640000) (k : Fin 128) :
    concatenate S640000x257 1 [⟨S640000x128, hs⟩, ⟨S640000x128, hd⟩, ⟨S640000x1, r⟩]
        concatenates_S640000x128_S640000x128_S640000x1_S640000x257_d1 (ix2 e (⟨k.val, by omega⟩ : Fin 257))
      = hs (ix2 e k) := by
  refine concatenate_apply_piece (t := S640000x257) 1 _ _ _ 0 (by show (0 : Nat) < 3; omega) S640000x128 hs rfl rfl 0 rfl (ix2 e k) ?_ ?_
  · intro b hb
    match b with
    | ⟨0, _⟩ => rfl
    | ⟨1, _⟩ => exact absurd rfl hb
  · show 0 + k.val = k.val
    omega

/-- The same at a column of the second piece. -/
theorem R_cat_snd (e : Fin 640000) (k : Fin 128) :
    concatenate S640000x257 1 [⟨S640000x128, hs⟩, ⟨S640000x128, hd⟩, ⟨S640000x1, r⟩]
        concatenates_S640000x128_S640000x128_S640000x1_S640000x257_d1 (ix2 e (⟨128 + k.val, by omega⟩ : Fin 257))
      = hd (ix2 e k) := by
  refine concatenate_apply_piece (t := S640000x257) 1 _ _ _ 1 (by show (1 : Nat) < 3; omega) S640000x128 hd rfl rfl 128 rfl (ix2 e k) ?_ ?_
  · intro b hb
    match b with
    | ⟨0, _⟩ => rfl
    | ⟨1, _⟩ => exact absurd rfl hb
  · show 128 + k.val = 128 + k.val
    rfl

/-- The same at the last column, the one-column third piece. -/
theorem R_cat_thd (e : Fin 640000) :
    concatenate S640000x257 1 [⟨S640000x128, hs⟩, ⟨S640000x128, hd⟩, ⟨S640000x1, r⟩]
        concatenates_S640000x128_S640000x128_S640000x1_S640000x257_d1 (ix2 e (⟨256, by omega⟩ : Fin 257))
      = r (ix2 e (0 : Fin 1)) := by
  refine concatenate_apply_piece (t := S640000x257) 1 _ _ _ 2 (by show (2 : Nat) < 3; omega) S640000x1 r rfl rfl 256 rfl (ix2 e (0 : Fin 1)) ?_ ?_
  · intro b hb
    match b with
    | ⟨0, _⟩ => rfl
    | ⟨1, _⟩ => exact absurd rfl hb
  · show 256 + 0 = 256
    rfl
end Cat

variable (x0 : (⟨S20000x128, .f32⟩ : BufTy).Contents (Elt Ideal)) (x1 : (⟨S20000x3, .f32⟩ : BufTy).Contents (Elt Ideal)) (x2 : (⟨S2x640000, .i32⟩ : BufTy).Contents (Elt Ideal))
  (x3 : (⟨S128x257, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x11 : (⟨S128x128, .f32⟩ : BufTy).Contents (Elt Ideal)) (x12 : (⟨S128, .f32⟩ : BufTy).Contents (Elt Ideal)) (x13 : (⟨S1x128, .f32⟩ : BufTy).Contents (Elt Ideal))

/-! ## The first linear map of the edge model -/

-- the gathered rows and the coordinate differences stay closed arrays: nothing below looks inside them
attribute [local irreducible] val_main_v28 val_main_v35 val_main_v18

/-- The squared distance column at edge e is the squared length of the edge's coordinate difference. -/
theorem R_v21 (e : Fin 640000) :
    val_main_v21 (F := Ideal) x1 x2 (ix2 e (0 : Fin 1)) = radial (fun a => val_main_v18 (F := Ideal) x1 x2 (ix2 e a)) := by
  rw [val_main_v21_apply, val_main_v20_apply, val_main_cst_apply, Ideal.ofBits_def, Ideal.ofBits_zero_f32, zero_add]
  unfold radial
  refine Finset.sum_congr rfl fun k _ => ?_
  have hi : idx_main_v20 (idx_main_v21 (ix2 e (0 : Fin 1))) k = ix2 e k :=
    funext fun a => Fin.ext (by match a with | ⟨0, _⟩ => rfl | ⟨1, _⟩ => rfl)
  rw [val_main_v19_apply, Ideal.mulf_def, hi]

/-- The concatenated edge input at a column of the source features. -/
theorem R_v36_fst (e : Fin 640000) (k : Fin 128) :
    val_main_v36 (F := Ideal) x0 x1 x2 (ix2 e (⟨k.val, by omega⟩ : Fin 257)) = val_main_v28 (F := Ideal) x0 x2 (ix2 e k) := by
  unfold val_main_v36
  exact R_cat_fst _ _ _ e k

/-- … at a column of the target features. -/
theorem R_v36_snd (e : Fin 640000) (k : Fin 128) :
    val_main_v36 (F := Ideal) x0 x1 x2 (ix2 e (⟨128 + k.val, by omega⟩ : Fin 257)) = val_main_v35 (F := Ideal) x0 x2 (ix2 e k) := by
  unfold val_main_v36
  exact R_cat_snd _ _ _ e k

/-- … at the last column, the squared distance. -/
theorem R_v36_thd (e : Fin 640000) :
    val_main_v36 (F := Ideal) x0 x1 x2 (ix2 e (⟨256, by omega⟩ : Fin 257))
      = radial (fun a => val_main_v18 (F := Ideal) x1 x2 (ix2 e a)) := by
  unfold val_main_v36
  exact (R_cat_thd _ _ _ e).trans (R_v21 x1 x2 e)

/-- The row index of the contraction's left operand. -/
theorem R_lidx38 (e : Fin 640000) (j : Fin 128) (k : Fin 257) : lidx_main_v38 (ix2 e j) k = ix2 e k :=
  funext fun a => Fin.ext (by match a with | ⟨0, _⟩ => rfl | ⟨1, _⟩ => rfl)

/-- The transposed weight matrix read back at (output unit, input unit). -/
theorem R_ridx38 (e : Fin 640000) (j : Fin 128) (k : Fin 257) : idx_main_v37 (ridx_main_v38 (ix2 e j) k) = ix2 j k :=
  funext fun a => Fin.ext (by match a with | ⟨0, _⟩ => rfl | ⟨1, _⟩ => rfl)

/-- One term of the contraction over the concatenated axis. -/
theorem R_v38_term (e : Fin 640000) (j : Fin 128) (k : Fin 257) :
    val_main_v36 (F := Ideal) x0 x1 x2 (lidx_main_v38 (ix2 e j) k) * val_main_v37 (F := Ideal) x3 (ridx_main_v38 (ix2 e j) k)
      = val_main_v36 (F := Ideal) x0 x1 x2 (ix2 e k) * x3 (ix2 j k) := by
  rw [val_main_v37_apply, R_lidx38, R_ridx38]

/-- The contraction over the concatenated axis, split into its three parts. -/
theorem R_v38 (e : Fin 640000) (j : Fin 128) :
    val_main_v38 (F := Ideal) x0 x1 x2 x3 (ix2 e j)
      = (∑ k : Fin 128, val_main_v28 (F := Ideal) x0 x2 (ix2 e k) * x3 (ix2 j (⟨k.val, by omega⟩ : Fin 257)))
        + (∑ k : Fin 128, val_main_v35 (F := Ideal) x0 x2 (ix2 e k) * x3 (ix2 j (⟨128 + k.val, by omega⟩ : Fin 257)))
        + radial (fun a => val_main_v18 (F := Ideal) x1 x2 (ix2 e a)) * x3 (ix2 j (⟨256, by omega⟩ : Fin 257)) := by
  rw [val_main_v38_apply]
  refine (Finset.sum_congr rfl fun k _ => R_v38_term x0 x1 x2 x3 e j k).trans ?_
  refine (sum_split3 _).trans ?_
  refine congrArg₂ (· + ·) (congrArg₂ (· + ·) (Finset.sum_congr rfl fun k _ => ?_) (Finset.sum_congr rfl fun k _ => ?_)) ?_
  · exact congrArg (· * _) (R_v36_fst x0 x1 x2 e k)
  · exact congrArg (· * _) (R_v36_snd x0 x1 x2 e k)
  · beta_reduce
    rw [R_v36_thd]

/-- The bias row broadcast over the edges. -/
theorem R_v40 (e : Fin 640000) (j : Fin 128) : val_main_v40 (F := Ideal) x4 (ix2 e j) = x4 (ix1 j) := by
  rw [val_main_v40_apply, val_main_v39_apply]
  exact congrArg x4 (funext fun a => Fin.ext (by match a with | ⟨0, _⟩ => rfl))

/-- The first linear map of the edge model at (e, j). -/
theorem R_v41 (e : Fin 640000) (j : Fin 128) :
    val_main_v41 (F := Ideal) x0 x1 x2 x3 x4 (ix2 e j)
      = pre1 (fun k => val_main_v28 (F := Ideal) x0 x2 (ix2 e k)) (fun k => val_main_v35 (F := Ideal) x0 x2 (ix2 e k))
          (fun a => val_main_v18 (F := Ideal) x1 x2 (ix2 e a))
          (fun j k => x3 (ix2 j ⟨k.val, by omega⟩)) (fun j k => x3 (ix2 j ⟨128 + k.val, by omega⟩)) (fun j => x3 (ix2 j ⟨256, by omega⟩))
          (fun j => x4 (ix1 j)) j := by
  rw [val_main_v41_apply, Ideal.addf_def, R_v38, R_v40]
  rfl

/-! ## The activation, the second linear map, the edge feature -/

/-- x times the logistic function written out as 1 / (1 + e⁻ˣ), both ones being the float literal 1.0, is the activation. -/
theorem R_silu (x : EReal) :
    FloatOps.mulf (F := Ideal) (φ := .f32) x (FloatOps.hostDivf (FloatOps.ofBits (F := Ideal) .f32 0x3F800000#32)
        (FloatOps.addf (FloatOps.ofBits (F := Ideal) .f32 0x3F800000#32) (FloatOps.hostUnary .exp (FloatOps.hostNegf x))))
      = silu x := by
  rw [Ideal.ofBits_def, R_one]
  rfl

/-- The activation of the first linear map. -/
theorem R_v48 (i : S640000x128.Idx) :
    val_main_v48 (F := Ideal) x0 x1 x2 x3 x4 i = silu (val_main_v41 (F := Ideal) x0 x1 x2 x3 x4 i) := by
  rw [val_main_v48_apply, val_main_v47_apply, val_main_v46_apply, val_main_cst_8_apply, val_main_v45_apply, val_main_v44_apply,
    val_main_cst_7_apply, val_main_v43_apply, val_main_v42_apply]
  exact R_silu _

theorem R_lidx50 (e : Fin 640000) (j : Fin 128) (k : Fin 128) : lidx_main_v50 (ix2 e j) k = ix2 e k :=
  funext fun a => Fin.ext (by match a with | ⟨0, _⟩ => rfl | ⟨1, _⟩ => rfl)

theorem R_ridx50 (e : Fin 640000) (j : Fin 128) (k : Fin 128) : idx_main_v49 (ridx_main_v50 (ix2 e j) k) = ix2 j k :=
  funext fun a => Fin.ext (by match a with | ⟨0, _⟩ => rfl | ⟨1, _⟩ => rfl)

/-- The second linear map's contraction at (e, j). -/
theorem R_v50 (e : Fin 640000) (j : Fin 128) :
    val_main_v50 (F := Ideal) x0 x1 x2 x3 x4 x5 (ix2 e j)
      = ∑ k : Fin 128, val_main_v48 (F := Ideal) x0 x1 x2 x3 x4 (ix2 e k) * x5 (ix2 j k) := by
  rw [val_main_v50_apply]
  refine Finset.sum_congr rfl fun k _ => ?_
  rw [val_main_v49_apply, R_lidx50, R_ridx50]

theorem R_v52 (e : Fin 640000) (j : Fin 128) : val_main_v52 (F := Ideal) x6 (ix2 e j) = x6 (ix1 j) := by
  rw [val_main_v52_apply, val_main_v51_apply]
  exact congrArg x6 (funext fun a => Fin.ext (by match a with | ⟨0, _⟩ => rfl))

/-- The second linear map at (e, j). -/
theorem R_v53 (e : Fin 640000) (j : Fin 128) :
    val_main_v53 (F := Ideal) x0 x1 x2 x3 x4 x5 x6 (ix2 e j)
      = (∑ k : Fin 128, val_main_v48 (F := Ideal) x0 x1 x2 x3 x4 (ix2 e k) * x5 (ix2 j k)) + x6 (ix1 j) := by
  rw [val_main_v53_apply, Ideal.addf_def, R_v50, R_v52]

/-- The activation of the second linear map: the edge feature. -/
theorem R_v60 (i : S640000x128.Idx) :
    val_main_v60 (F := Ideal) x0 x1 x2 x3 x4 x5 x6 i = silu (val_main_v53 (F := Ideal) x0 x1 x2 x3 x4 x5 x6 i) := by
  rw [val_main_v60_apply, val_main_v59_apply, val_main_v58_apply, val_main_cst_10_apply, val_main_v57_apply, val_main_v56_apply,
    val_main_cst_9_apply, val_main_v55_apply, val_main_v54_apply]
  exact R_silu _

/-- The edge feature at (e, j) as the row function of the edge's gathered rows. -/
theorem R_edge_feat (e : Fin 640000) (j : Fin 128) :
    val_main_v60 (F := Ideal) x0 x1 x2 x3 x4 x5 x6 (ix2 e j)
      = edgeFeat (fun k => val_main_v28 (F := Ideal) x0 x2 (ix2 e k)) (fun k => val_main_v35 (F := Ideal) x0 x2 (ix2 e k))
          (fun a => val_main_v18 (F := Ideal) x1 x2 (ix2 e a))
          (fun j k => x3 (ix2 j ⟨k.val, by omega⟩)) (fun j k => x3 (ix2 j ⟨128 + k.val, by omega⟩)) (fun j => x3 (ix2 j ⟨256, by omega⟩))
          (fun j => x4 (ix1 j)) (fun j k => x5 (ix2 j k)) (fun j => x6 (ix1 j)) j := by
  rw [R_v60, R_v53]
  unfold edgeFeat
  refine congrArg silu (congrArg (· + _) (Finset.sum_congr rfl fun k _ => ?_))
  rw [R_v48, R_v41]

/-! ## The coordinate model -/

theorem R_lidx62 (e : Fin 640000) (j : Fin 128) (k : Fin 128) : lidx_main_v62 (ix2 e j) k = ix2 e k :=
  funext fun a => Fin.ext (by match a with | ⟨0, _⟩ => rfl | ⟨1, _⟩ => rfl)

theorem R_ridx62 (e : Fin 640000) (j : Fin 128) (k : Fin 128) : idx_main_v61 (ridx_main_v62 (ix2 e j) k) = ix2 j k :=
  funext fun a => Fin.ext (by match a with | ⟨0, _⟩ => rfl | ⟨1, _⟩ => rfl)

/-- The coordinate model's first contraction at (e, j). -/
theorem R_v62 (e : Fin 640000) (j : Fin 128) :
    val_main_v62 (F := Ideal) x0 x1 x2 x3 x4 x5 x6 x11 (ix2 e j)
      = ∑ k : Fin 128, val_main_v60 (F := Ideal) x0 x1 x2 x3 x4 x5 x6 (ix2 e k) * x11 (ix2 j k) := by
  rw [val_main_v62_apply]
  refine Finset.sum_congr rfl fun k _ => ?_
  rw [val_main_v61_apply, R_lidx62, R_ridx62]

theorem R_v64 (e : Fin 640000) (j : Fin 128) : val_main_v64 (F := Ideal) x12 (ix2 e j) = x12 (ix1 j) := by
  rw [val_main_v64_apply, val_main_v63_apply]
  exact congrArg x12 (funext fun a => Fin.ext (by match a with | ⟨0, _⟩ => rfl))

/-- The coordinate model's first linear map at (e, j). -/
theorem R_v65 (e : Fin 640000) (j : Fin 128) :
    val_main_v65 (F := Ideal) x0 x1 x2 x3 x4 x5 x6 x11 x12 (ix2 e j)
      = (∑ k : Fin 128, val_main_v60 (F := Ideal) x0 x1 x2 x3 x4 x5 x6 (ix2 e k) * x11 (ix2 j k)) + x12 (ix1 j) := by
  rw [val_main_v65_apply, Ideal.addf_def, R_v62, R_v64]

/-- Its activation. -/
theorem R_v72 (i : S640000x128.Idx) :
    val_main_v72 (F := Ideal) x0 x1 x2 x3 x4 x5 x6 x11 x12 i = silu (val_main_v65 (F := Ideal) x0 x1 x2 x3 x4 x5 x6 x11 x12 i) := by
  rw [val_main_v72_apply, val_main_v71_apply, val_main_v70_apply, val_main_cst_12_apply, val_main_v69_apply, val_main_v68_apply,
    val_main_cst_11_apply, val_main_v67_apply, val_main_v66_apply]
  exact R_silu _

theorem R_lidx74 (e : Fin 640000) (k : Fin 128) : lidx_main_v74 (ix2 e (0 : Fin 1)) k = ix2 e k :=
  funext fun a => Fin.ext (by match a with | ⟨0, _⟩ => rfl | ⟨1, _⟩ => rfl)

theorem R_ridx74 (e : Fin 640000) (k : Fin 128) : idx_main_v73 (ridx_main_v74 (ix2 e (0 : Fin 1)) k) = ix2 (0 : Fin 1) k :=
  funext fun a => Fin.ext (by match a with | ⟨0, _⟩ => rfl | ⟨1, _⟩ => rfl)

/-- The inner product with the last weight row: the edge's scalar. -/
theorem R_v74 (e : Fin 640000) :
    val_main_v74 (F := Ideal) x0 x1 x2 x3 x4 x5 x6 x11 x12 x13 (ix2 e (0 : Fin 1))
      = ∑ k : Fin 128, val_main_v72 (F := Ideal) x0 x1 x2 x3 x4 x5 x6 x11 x12 (ix2 e k) * x13 (ix2 (0 : Fin 1) k) := by
  rw [val_main_v74_apply]
  refine Finset.sum_congr rfl fun k _ => ?_
  rw [val_main_v73_apply, R_lidx74, R_ridx74]

/-- The coordinate update at (e, a): the coordinate difference times the edge's scalar. -/
theorem R_v76 (e : Fin 640000) (a : Fin 3) :
    val_main_v76 (F := Ideal) x0 x1 x2 x3 x4 x5 x6 x11 x12 x13 (ix2 e a)
      = val_main_v18 (F := Ideal) x1 x2 (ix2 e a) * val_main_v74 (F := Ideal) x0 x1 x2 x3 x4 x5 x6 x11 x12 x13 (ix2 e (0 : Fin 1)) := by
  have hi : idx_main_v75 (ix2 e a) = ix2 e (0 : Fin 1) :=
    funext fun b => Fin.ext (by match b with | ⟨0, _⟩ => rfl | ⟨1, _⟩ => rfl)
  rw [val_main_v76_apply, Ideal.mulf_def, val_main_v75_apply, hi]

/-- The coordinate update at (e, a) as the row function of the edge's gathered rows. -/
theorem R_trans (e : Fin 640000) (a : Fin 3) :
    val_main_v76 (F := Ideal) x0 x1 x2 x3 x4 x5 x6 x11 x12 x13 (ix2 e a)
      = trans (fun k => val_main_v28 (F := Ideal) x0 x2 (ix2 e k)) (fun k => val_main_v35 (F := Ideal) x0 x2 (ix2 e k))
          (fun a => val_main_v18 (F := Ideal) x1 x2 (ix2 e a))
          (fun j k => x3 (ix2 j ⟨k.val, by omega⟩)) (fun j k => x3 (ix2 j ⟨128 + k.val, by omega⟩)) (fun j => x3 (ix2 j ⟨256, by omega⟩))
          (fun j => x4 (ix1 j)) (fun j k => x5 (ix2 j k)) (fun j => x6 (ix1 j))
          (fun j k => x11 (ix2 j k)) (fun j => x12 (ix1 j)) (fun k => x13 (ix2 (0 : Fin 1) k)) a := by
  rw [R_v76, R_v74]
  unfold Cert.EGcl.trans coordWeight
  refine congrArg (_ * ·) (Finset.sum_congr rfl fun k _ => ?_)
  rw [R_v72, R_v65]
  refine congrArg (· * _) (congrArg silu (congrArg (· + _) (Finset.sum_congr rfl fun l _ => ?_)))
  rw [R_edge_feat]

end Cert.ReferenceIdeal.RefValue

end
-- ==== Proof.RefEdge.lean ====
/-
  The reference's edge stages at an index: at the ideal instance, entry (e, j) of its edge-feature array and entry
  (e, a) of its coordinate-update array are the row functions of Spec.lean applied to row e of the gathered source
  features, target features and coordinate differences, and to the weight matrices read as (output unit, input unit).
-/
import proofs.«137929_j9320079032381_2_alg».proof.Proof.Gen.ReferenceIdeal.Read
import proofs.«137929_j9320079032381_2_alg».proof.Proof.Spec
import proofs.«137929_j9320079032381_2_alg».proof.Proof.RefEdgeAux
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx Idealize.SL.Sem Cert.EGcl

variable (x0 : (⟨S20000x128, .f32⟩ : BufTy).Contents (Elt Ideal)) (x1 : (⟨S20000x3, .f32⟩ : BufTy).Contents (Elt Ideal)) (x2 : (⟨S2x640000, .i32⟩ : BufTy).Contents (Elt Ideal))
  (x3 : (⟨S128x257, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S128x256, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
  (x11 : (⟨S128x128, .f32⟩ : BufTy).Contents (Elt Ideal)) (x12 : (⟨S128, .f32⟩ : BufTy).Contents (Elt Ideal)) (x13 : (⟨S1x128, .f32⟩ : BufTy).Contents (Elt Ideal))

/-- The reference's edge-feature array at (e, j). -/
theorem ref_edge_feat (e : Fin 640000) (j : Fin 128) :
    val_main_v60 (F := Ideal) x0 x1 x2 x3 x4 x5 x6 (ix2 e j)
      = edgeFeat (fun k => val_main_v28 (F := Ideal) x0 x2 (ix2 e k)) (fun k => val_main_v35 (F := Ideal) x0 x2 (ix2 e k))
          (fun a => val_main_v18 (F := Ideal) x1 x2 (ix2 e a))
          (fun j k => x3 (ix2 j ⟨k.val, by omega⟩)) (fun j k => x3 (ix2 j ⟨128 + k.val, by omega⟩)) (fun j => x3 (ix2 j ⟨256, by omega⟩))
          (fun j => x4 (ix1 j)) (fun j k => x5 (ix2 j k)) (fun j => x6 (ix1 j)) j := by
  exact R_edge_feat x0 x1 x2 x3 x4 x5 x6 e j

/-- The reference's coordinate-update array (before the scatter-add) at (e, a). -/
theorem ref_trans (e : Fin 640000) (a : Fin 3) :
    val_main_v76 (F := Ideal) x0 x1 x2 x3 x4 x5 x6 x11 x12 x13 (ix2 e a)
      = trans (fun k => val_main_v28 (F := Ideal) x0 x2 (ix2 e k)) (fun k => val_main_v35 (F := Ideal) x0 x2 (ix2 e k))
          (fun a => val_main_v18 (F := Ideal) x1 x2 (ix2 e a))
          (fun j k => x3 (ix2 j ⟨k.val, by omega⟩)) (fun j k => x3 (ix2 j ⟨128 + k.val, by omega⟩)) (fun j => x3 (ix2 j ⟨256, by omega⟩))
          (fun j => x4 (ix1 j)) (fun j k => x5 (ix2 j k)) (fun j => x6 (ix1 j))
          (fun j k => x11 (ix2 j k)) (fun j => x12 (ix1 j)) (fun k => x13 (ix2 0 k)) a := by
  exact R_trans x0 x1 x2 x3 x4 x5 x6 x11 x12 x13 e a

end Cert.ReferenceIdeal.RefValue

end
-- ==== Proof.RefNodeAux.lean ====
/-
  Auxiliary lemmas for the reference's node stage, one operation at a time, at the ideal instance (every float an
  extended real, every operation exact).

  The node model's first linear map is ONE contraction over the concatenation (node features, aggregated edge features)
  of width 128 + 128; read at an index, the concatenation is the first array on the first 128 coordinates and the second
  array on the last 128, so the contraction splits (by associativity and commutativity of + alone) into the two partial
  sums the row-by-row specification is written with. The activation is spelled x · (1 / (1 + exp(−x))), which is
  x times the logistic function of x once the literal 1.0 is read as the extended real 1. The second linear map, the
  two bias broadcasts and the residual are read entry by entry. The aggregated edge features (a scatter-add) stay an
  opaque array throughout: only its entries are ever mentioned.
-/
import proofs.«137929_j9320079032381_2_alg».proof.Proof.Gen.ReferenceIdeal.Read
import proofs.«137929_j9320079032381_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Idealize.SL.Sem Cert.EGcl

variable (x0 : (⟨S20000x128, .f32⟩ : BufTy).Contents (Elt Ideal)) (x1 : (⟨S20000x3, .f32⟩ : BufTy).Contents (Elt Ideal)) (x2 : (⟨S2x640000, .i32⟩ : BufTy).Contents (Elt Ideal))
  (x3 : (⟨S128x257, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S128x256, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))

/-- The literal 1.0 denotes the extended real 1. -/
theorem S_one : Ideal.ofBits .f32 0x3F800000#32 = (1 : EReal) := by
  simp [Ideal.ofBits, Ideal.ieee, -EReal.coe_mul]; norm_num

/-- x · (1 / (1 + exp(−x))), with both units the literal 1.0, is the activation x · σ(x). -/
theorem S_silu (u : Ideal .f32) :
    FloatOps.mulf u (FloatOps.hostDivf (FloatOps.ofBits (F := Ideal) .f32 0x3F800000#32)
      (FloatOps.addf (FloatOps.ofBits (F := Ideal) .f32 0x3F800000#32) (FloatOps.hostUnary .exp (FloatOps.hostNegf u))))
      = silu u := by
  show u * Ideal.div (Ideal.ofBits .f32 0x3F800000#32) (Ideal.ofBits .f32 0x3F800000#32 + Ideal.exp (-u)) = silu u
  rw [S_one]
  rfl

/-- The two-operand concatenation along the feature axis, read in its first half. -/
theorem S_cat_left (a b : (⟨S20000x128, .f32⟩ : BufTy).Contents (Elt Ideal)) (n : Fin 20000) (k : Fin 128) :
    concatenate S20000x256 1 [⟨S20000x128, a⟩, ⟨S20000x128, b⟩] concatenates_S20000x128_S20000x128_S20000x256_d1
      (ix2 n (⟨k.val, by omega⟩ : Fin 256)) = a (ix2 n k) := by
  refine concatenate_pair_apply_left (t := S20000x256) (s₁ := S20000x128) (s₂ := S20000x128) 1 a b _ _ rfl (ix2 n k) ?_
  intro b
  match b with
  | ⟨0, _⟩ => rfl
  | ⟨1, _⟩ => rfl

/-- The two-operand concatenation along the feature axis, read in its second half. -/
theorem S_cat_right (a b : (⟨S20000x128, .f32⟩ : BufTy).Contents (Elt Ideal)) (n : Fin 20000) (k : Fin 128) :
    concatenate S20000x256 1 [⟨S20000x128, a⟩, ⟨S20000x128, b⟩] concatenates_S20000x128_S20000x128_S20000x256_d1
      (ix2 n (⟨128 + k.val, by omega⟩ : Fin 256)) = b (ix2 n k) := by
  refine concatenate_pair_apply_right (t := S20000x256) (s₁ := S20000x128) (s₂ := S20000x128) 1 a b _ _ rfl rfl (ix2 n k) ?_ ?_
  · intro b hb
    match b with
    | ⟨0, _⟩ => rfl
    | ⟨1, _⟩ => exact absurd rfl hb
  · show k.val + 128 = 128 + k.val
    omega

/-! ## The first linear map of the node model: one contraction over the concatenated axis, read in its two halves -/

/-- The concatenation's row n in its first half is the node's own feature row. -/
theorem S_v84_left (n : Fin 20000) (k : Fin 128) :
    val_main_v84 (F := Ideal) x0 x1 x2 x3 x4 x5 x6 (ix2 n (⟨k.val, by omega⟩ : Fin 256)) = x0 (ix2 n k) := by
  unfold val_main_v84
  exact S_cat_left _ _ n k

/-- The concatenation's row n in its second half is the aggregated edge-feature row. -/
theorem S_v84_right (n : Fin 20000) (k : Fin 128) :
    val_main_v84 (F := Ideal) x0 x1 x2 x3 x4 x5 x6 (ix2 n (⟨128 + k.val, by omega⟩ : Fin 256))
      = val_main_v83 (F := Ideal) x0 x1 x2 x3 x4 x5 x6 (ix2 n k) := by
  unfold val_main_v84
  exact S_cat_right _ _ n k

/-- The contraction reads its left operand at (n, k). -/
theorem S_lidx86 (n : Fin 20000) (j : Fin 128) (k : Fin 256) : lidx_main_v86 (ix2 n j) k = ix2 n k :=
  funext fun a => Fin.ext (by match a with | ⟨0, _⟩ => rfl | ⟨1, _⟩ => rfl)

/-- The contraction reads the transposed weight at (k, j), that is the weight at (j, k). -/
theorem S_ridx86 (n : Fin 20000) (j : Fin 128) (k : Fin 256) : idx_main_v85 (ridx_main_v86 (ix2 n j) k) = ix2 j k :=
  funext fun a => Fin.ext (by match a with | ⟨0, _⟩ => rfl | ⟨1, _⟩ => rfl)

/-- The first linear map at (n, j): the node's own part plus the aggregated part. -/
theorem S_v86 (n : Fin 20000) (j : Fin 128) :
    val_main_v86 (F := Ideal) x0 x1 x2 x3 x4 x5 x6 x7 (ix2 n j)
      = (∑ k : Fin 128, x0 (ix2 n k) * x7 (ix2 j (⟨k.val, by omega⟩ : Fin 256)))
        + (∑ k : Fin 128, val_main_v83 (F := Ideal) x0 x1 x2 x3 x4 x5 x6 (ix2 n k) * x7 (ix2 j (⟨128 + k.val, by omega⟩ : Fin 256))) := by
  rw [val_main_v86_apply]
  refine (sum_split2 _).trans ?_
  refine congrArg₂ (· + ·) (Finset.sum_congr rfl fun k _ => ?_) (Finset.sum_congr rfl fun k _ => ?_)
  · rw [S_lidx86, val_main_v85_apply, S_ridx86, S_v84_left]
  · rw [S_lidx86, val_main_v85_apply, S_ridx86, S_v84_right]

/-- The broadcast bias of the first linear map at (n, j) is the bias at j. -/
theorem S_v88 (n : Fin 20000) (j : Fin 128) : val_main_v88 (F := Ideal) x8 (ix2 n j) = x8 (ix1 j) := by
  rw [val_main_v88_apply, val_main_v87_apply]
  exact congrArg x8 (funext fun a => Fin.ext (by match a with | ⟨0, _⟩ => rfl))

/-- The activation stages: x · (1 / (1 + exp(−x))) entry by entry. -/
theorem S_v96 (i : S20000x128.Idx) :
    val_main_v96 (F := Ideal) x0 x1 x2 x3 x4 x5 x6 x7 x8 i = silu (val_main_v89 (F := Ideal) x0 x1 x2 x3 x4 x5 x6 x7 x8 i) := by
  rw [val_main_v96_apply, val_main_v95_apply, val_main_v94_apply, val_main_cst_16_apply, val_main_v93_apply,
    val_main_v92_apply, val_main_cst_15_apply, val_main_v91_apply, val_main_v90_apply]
  exact S_silu _

/-- The first linear map with its bias at (n, j). -/
theorem S_v89 (n : Fin 20000) (j : Fin 128) :
    val_main_v89 (F := Ideal) x0 x1 x2 x3 x4 x5 x6 x7 x8 (ix2 n j)
      = (∑ k : Fin 128, x0 (ix2 n k) * x7 (ix2 j (⟨k.val, by omega⟩ : Fin 256)))
        + (∑ k : Fin 128, val_main_v83 (F := Ideal) x0 x1 x2 x3 x4 x5 x6 (ix2 n k) * x7 (ix2 j (⟨128 + k.val, by omega⟩ : Fin 256)))
        + x8 (ix1 j) := by
  rw [val_main_v89_apply, S_v86, S_v88]
  rfl

/-! ## The second linear map, its bias, and the residual -/

/-- The second contraction reads its left operand at (n, k). -/
theorem S_lidx98 (n : Fin 20000) (j : Fin 128) (k : Fin 128) : lidx_main_v98 (ix2 n j) k = ix2 n k :=
  funext fun a => Fin.ext (by match a with | ⟨0, _⟩ => rfl | ⟨1, _⟩ => rfl)

/-- The second contraction reads the transposed weight at (k, j), that is the weight at (j, k). -/
theorem S_ridx98 (n : Fin 20000) (j : Fin 128) (k : Fin 128) : idx_main_v97 (ridx_main_v98 (ix2 n j) k) = ix2 j k :=
  funext fun a => Fin.ext (by match a with | ⟨0, _⟩ => rfl | ⟨1, _⟩ => rfl)

/-- The second linear map at (n, j): the activated first layer against row j of the weight. -/
theorem S_v98 (n : Fin 20000) (j : Fin 128) :
    val_main_v98 (F := Ideal) x0 x1 x2 x3 x4 x5 x6 x7 x8 x9 (ix2 n j)
      = ∑ k : Fin 128, silu (val_main_v89 (F := Ideal) x0 x1 x2 x3 x4 x5 x6 x7 x8 (ix2 n k)) * x9 (ix2 j k) := by
  rw [val_main_v98_apply]
  refine Finset.sum_congr rfl fun k _ => ?_
  rw [S_lidx98, val_main_v97_apply, S_ridx98, S_v96]

/-- The broadcast bias of the second linear map at (n, j) is the bias at j. -/
theorem S_v100 (n : Fin 20000) (j : Fin 128) : val_main_v100 (F := Ideal) x10 (ix2 n j) = x10 (ix1 j) := by
  rw [val_main_v100_apply, val_main_v99_apply]
  exact congrArg x10 (funext fun a => Fin.ext (by match a with | ⟨0, _⟩ => rfl))

/-- The node stage's result at (n, j): residual plus the node model, in terms of the first layer. -/
theorem S_v102 (n : Fin 20000) (j : Fin 128) :
    val_main_v102 (F := Ideal) x0 x1 x2 x3 x4 x5 x6 x7 x8 x9 x10 (ix2 n j)
      = x0 (ix2 n j) + ((∑ k : Fin 128, silu (val_main_v89 (F := Ideal) x0 x1 x2 x3 x4 x5 x6 x7 x8 (ix2 n k)) * x9 (ix2 j k))
          + x10 (ix1 j)) := by
  rw [val_main_v102_apply, val_main_v101_apply, S_v98, S_v100]
  rfl

end Cert.ReferenceIdeal.RefValue

end
-- ==== Proof.RefNode.lean ====
/-
  The reference's node stage at an index: at the ideal instance, entry (n, j) of its result is the node row function of
  Spec.lean applied to row n of the node features and of the aggregated edge features (the scatter-add's result,
  kept as an opaque array), and to the weight matrices read as (output unit, input unit).
-/
import proofs.«137929_j9320079032381_2_alg».proof.Proof.Gen.ReferenceIdeal.Read
import proofs.«137929_j9320079032381_2_alg».proof.Proof.Spec
import proofs.«137929_j9320079032381_2_alg».proof.Proof.RefNodeAux
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx Idealize.SL.Sem Cert.EGcl

variable (x0 : (⟨S20000x128, .f32⟩ : BufTy).Contents (Elt Ideal)) (x1 : (⟨S20000x3, .f32⟩ : BufTy).Contents (Elt Ideal)) (x2 : (⟨S2x640000, .i32⟩ : BufTy).Contents (Elt Ideal))
  (x3 : (⟨S128x257, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S128x256, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
  (x11 : (⟨S128x128, .f32⟩ : BufTy).Contents (Elt Ideal)) (x12 : (⟨S128, .f32⟩ : BufTy).Contents (Elt Ideal)) (x13 : (⟨S1x128, .f32⟩ : BufTy).Contents (Elt Ideal))

/-- The reference's node output at (n, j). -/
theorem ref_node (n : Fin 20000) (j : Fin 128) :
    val_main_v102 (F := Ideal) x0 x1 x2 x3 x4 x5 x6 x7 x8 x9 x10 (ix2 n j)
      = nodeOut (fun k => x0 (ix2 n k)) (fun k => val_main_v83 (F := Ideal) x0 x1 x2 x3 x4 x5 x6 (ix2 n k))
          (fun j k => x7 (ix2 j ⟨k.val, by omega⟩)) (fun j k => x7 (ix2 j ⟨128 + k.val, by omega⟩)) (fun j => x8 (ix1 j))
          (fun j k => x9 (ix2 j k)) (fun j => x10 (ix1 j)) j := by
  -- residual + (second linear map of the activated first layer + bias), then the first layer entry by entry
  rw [S_v102]
  unfold nodeOut
  refine congrArg (fun s => x0 (ix2 n j) + (s + x10 (ix1 j))) (Finset.sum_congr rfl fun k _ => ?_)
  rw [S_v89]

end Cert.ReferenceIdeal.RefValue

end
-- ==== Proof.KJoin.lean ====
/-
  The idealized kernel program's boundary contents against the reference's stages, at the ideal instance.
  The edge region is entered with the gathered source and target features (a change of float format apart: the identity
  on the extended reals), the coordinate differences, the column blocks of the first edge weight and the biases as rows;
  read at an index these are the reference's gathered arrays and the argument arrays at shifted columns. So the edge
  region's two output arrays — the row functions of Spec.lean of those rows — are the reference's edge-feature stage and
  its coordinate-update stage, entry by entry. The scatter-adds and the gathers are never opened: equal arrays go in,
  equal arrays come out. The same for the node region, whose output is then the reference's result.
-/
import proofs.«137929_j9320079032381_2_alg».proof.Proof.KRun
import proofs.«137929_j9320079032381_2_alg».proof.Proof.KHost
import proofs.«137929_j9320079032381_2_alg».proof.Proof.KEdge
import proofs.«137929_j9320079032381_2_alg».proof.Proof.KNode
import proofs.«137929_j9320079032381_2_alg».proof.Proof.RefEdge
import proofs.«137929_j9320079032381_2_alg».proof.Proof.RefNode
import Idealize.ShloMosaic.Lib.ValueLayout
import Idealize.ShloMosaic.Lib.Pipeline.Value

noncomputable section

namespace Cert.KernelIdeal.Join

open Cert.KernelIdeal Cert.KernelIdeal.Gen Cert.KernelIdeal.GenP Idealize.ShloMosaic Idealize.ShloMosaic.TcCoe
open Idealize.ShloMosaic.ValueIdx Idealize.SL.Sem Idealize.ShloMosaic.StableHlo Cert.EGcl
open Cert.KernelIdeal.HostValue Cert.KernelIdeal.EdgeValue Cert.KernelIdeal.NodeValue Cert.ReferenceIdeal.RefValue

/-! ## Small layout facts over variable arrays -/

section Layout
variable {α : Type}

/-- Columns 0 … 127 of a 128 × 257 array. -/
theorem slice257_lo (x : S128x257.Idx → α) (j k : Fin 128) :
    extractStridedSlice S128x128 ![0, 0] x slices_S128x257_S128x128_0_0 (ix2 j k) = x (ix2 j ⟨k.val, by omega⟩) :=
  extractStridedSlice_apply ![0, 0] x slices_S128x257_S128x128_0_0 (ix2 j k) (ix2 j ⟨k.val, by omega⟩) (fun a => match a with
    | ⟨0, _⟩ => by show j.val = 0 + j.val; omega
    | ⟨1, _⟩ => by show k.val = 0 + k.val; omega)

/-- Columns 128 … 255 of a 128 × 257 array. -/
theorem slice257_mid (x : S128x257.Idx → α) (j k : Fin 128) :
    extractStridedSlice S128x128 ![0, 128] x slices_S128x257_S128x128_0_128 (ix2 j k) = x (ix2 j ⟨128 + k.val, by omega⟩) :=
  extractStridedSlice_apply ![0, 128] x slices_S128x257_S128x128_0_128 (ix2 j k) (ix2 j ⟨128 + k.val, by omega⟩) (fun a => match a with
    | ⟨0, _⟩ => by show j.val = 0 + j.val; omega
    | ⟨1, _⟩ => by show 128 + k.val = 128 + k.val; rfl)

/-- Column 256 of a 128 × 257 array, transposed to a row. -/
theorem slice257_last (x : S128x257.Idx → α) (j : Fin 128) :
    transpose S1x128 [1, 0] (extractStridedSlice S128x1 ![0, 256] x slices_S128x257_S128x1_0_256) transposes_S128x1_S1x128_1_0 (ix2 (0 : Fin 1) j)
      = x (ix2 j ⟨256, by omega⟩) :=
  (transpose_ix2_apply (a := 128) (b := 1) _ transposes_S128x1_S1x128_1_0 (0 : Fin 1) j).trans
    (extractStridedSlice_apply ![0, 256] x slices_S128x257_S128x1_0_256 (ix2 j (0 : Fin 1)) (ix2 j ⟨256, by omega⟩) (fun a => match a with
      | ⟨0, _⟩ => by show j.val = 0 + j.val; omega
      | ⟨1, _⟩ => by show 256 = 256 + 0; rfl))

/-- Columns 0 … 127 of a 128 × 256 array. -/
theorem slice256_lo (x : S128x256.Idx → α) (j k : Fin 128) :
    extractStridedSlice S128x128 ![0, 0] x slices_S128x256_S128x128_0_0 (ix2 j k) = x (ix2 j ⟨k.val, by omega⟩) :=
  extractStridedSlice_apply ![0, 0] x slices_S128x256_S128x128_0_0 (ix2 j k) (ix2 j ⟨k.val, by omega⟩) (fun a => match a with
    | ⟨0, _⟩ => by show j.val = 0 + j.val; omega
    | ⟨1, _⟩ => by show k.val = 0 + k.val; omega)

/-- Columns 128 … 255 of a 128 × 256 array. -/
theorem slice256_hi (x : S128x256.Idx → α) (j k : Fin 128) :
    extractStridedSlice S128x128 ![0, 128] x slices_S128x256_S128x128_0_128 (ix2 j k) = x (ix2 j ⟨128 + k.val, by omega⟩) :=
  extractStridedSlice_apply ![0, 128] x slices_S128x256_S128x128_0_128 (ix2 j k) (ix2 j ⟨128 + k.val, by omega⟩) (fun a => match a with
    | ⟨0, _⟩ => by show j.val = 0 + j.val; omega
    | ⟨1, _⟩ => by show 128 + k.val = 128 + k.val; rfl)

/-- A 128-vector as a 1 × 128 row. -/
theorem row128 (x : S128.Idx → α) (j : Fin 128) :
    shapeCast S1x128 x shapeCasts_S128_S1x128 (ix2 (0 : Fin 1) j) = x (ix1 j) :=
  shapeCast_a_1a_apply x shapeCasts_S128_S1x128 0 j

end Layout

/-! ## The row functions respect equal arguments -/

theorem edgeFeat_congr {hs hs' hd hd' : Fin 128 → EReal} {cd cd' : Fin 3 → EReal} {Ws Ws' Wd Wd' : Fin 128 → Fin 128 → EReal}
    {wr wr' b1 b1' : Fin 128 → EReal} {W2 W2' : Fin 128 → Fin 128 → EReal} {b2 b2' : Fin 128 → EReal} (j : Fin 128)
    (h1 : hs = hs') (h2 : hd = hd') (h3 : cd = cd') (h4 : Ws = Ws') (h5 : Wd = Wd') (h6 : wr = wr') (h7 : b1 = b1')
    (h8 : W2 = W2') (h9 : b2 = b2') :
    edgeFeat hs hd cd Ws Wd wr b1 W2 b2 j = edgeFeat hs' hd' cd' Ws' Wd' wr' b1' W2' b2' j := by
  subst h1 h2 h3 h4 h5 h6 h7 h8 h9; rfl

theorem trans_congr {hs hs' hd hd' : Fin 128 → EReal} {cd cd' : Fin 3 → EReal} {Ws Ws' Wd Wd' : Fin 128 → Fin 128 → EReal}
    {wr wr' b1 b1' : Fin 128 → EReal} {W2 W2' : Fin 128 → Fin 128 → EReal} {b2 b2' : Fin 128 → EReal}
    {Wc1 Wc1' : Fin 128 → Fin 128 → EReal} {bc1 bc1' wc2 wc2' : Fin 128 → EReal} (a : Fin 3)
    (h1 : hs = hs') (h2 : hd = hd') (h3 : cd = cd') (h4 : Ws = Ws') (h5 : Wd = Wd') (h6 : wr = wr') (h7 : b1 = b1')
    (h8 : W2 = W2') (h9 : b2 = b2') (h10 : Wc1 = Wc1') (h11 : bc1 = bc1') (h12 : wc2 = wc2') :
    trans hs hd cd Ws Wd wr b1 W2 b2 Wc1 bc1 wc2 a = trans hs' hd' cd' Ws' Wd' wr' b1' W2' b2' Wc1' bc1' wc2' a := by
  subst h1 h2 h3 h4 h5 h6 h7 h8 h9 h10 h11 h12; rfl

theorem nodeOut_congr {h h' agg agg' : Fin 128 → EReal} {Wh Wh' Wa Wa' : Fin 128 → Fin 128 → EReal} {bn1 bn1' : Fin 128 → EReal}
    {Wn2 Wn2' : Fin 128 → Fin 128 → EReal} {bn2 bn2' : Fin 128 → EReal} (j : Fin 128)
    (h1 : h = h') (h2 : agg = agg') (h3 : Wh = Wh') (h4 : Wa = Wa') (h5 : bn1 = bn1') (h6 : Wn2 = Wn2') (h7 : bn2 = bn2') :
    nodeOut h agg Wh Wa bn1 Wn2 bn2 j = nodeOut h' agg' Wh' Wa' bn1' Wn2' bn2' j := by
  subst h1 h2 h3 h4 h5 h6 h7; rfl

/-! ## The edge region's entry contents, at the ideal instance -/

section Edge

variable (m : (ℓ : Loc nD τ sig) → Buf (Elt Ideal) ℓ) (ρ : Dev nD → PrngReg) (c : Dev nD)

/-- The gathered source features are the reference's (a change of float format is the identity). -/
theorem ent_hsrc : V1 m ρ c main_v11 = Cert.ReferenceIdeal.Read.val_main_v28 (F := Ideal) (m ((c.tc : Thread nD τ).loc main_arg0)) (m ((c.tc : Thread nD τ).loc main_arg2)) := by
  show StableHlo.after (hostOps0 (F := Ideal)) (W0 m ρ c) (Proc.devRef .tc main_v11) = _
  rw [pre_hsrc]; rfl

/-- The gathered target features are the reference's. -/
theorem ent_hdst : V1 m ρ c main_v18 = Cert.ReferenceIdeal.Read.val_main_v35 (F := Ideal) (m ((c.tc : Thread nD τ).loc main_arg0)) (m ((c.tc : Thread nD τ).loc main_arg2)) := by
  show StableHlo.after (hostOps0 (F := Ideal)) (W0 m ρ c) (Proc.devRef .tc main_v18) = _
  rw [pre_hdst]; rfl

/-- The coordinate differences are the reference's. -/
theorem ent_cdiff : V1 m ρ c main_v33 = Cert.ReferenceIdeal.Read.val_main_v18 (F := Ideal) (m ((c.tc : Thread nD τ).loc main_arg1)) (m ((c.tc : Thread nD τ).loc main_arg2)) := by
  show StableHlo.after (hostOps0 (F := Ideal)) (W0 m ρ c) (Proc.devRef .tc main_v33) = _
  rw [pre_cdiff]

theorem ent_wsrc (j k : Fin 128) : V1 m ρ c main_v34 (ix2 j k) = (m ((c.tc : Thread nD τ).loc main_arg3)) (ix2 j ⟨k.val, by omega⟩) := by
  show StableHlo.after (hostOps0 (F := Ideal)) (W0 m ρ c) (Proc.devRef .tc main_v34) (ix2 j k) = _
  rw [pre_wsrc]; exact slice257_lo _ j k

theorem ent_wdst (j k : Fin 128) : V1 m ρ c main_v35 (ix2 j k) = (m ((c.tc : Thread nD τ).loc main_arg3)) (ix2 j ⟨128 + k.val, by omega⟩) := by
  show StableHlo.after (hostOps0 (F := Ideal)) (W0 m ρ c) (Proc.devRef .tc main_v35) (ix2 j k) = _
  rw [pre_wdst]; exact slice257_mid _ j k

theorem ent_wrad (j : Fin 128) : V1 m ρ c main_v37 (ix2 (0 : Fin 1) j) = (m ((c.tc : Thread nD τ).loc main_arg3)) (ix2 j ⟨256, by omega⟩) := by
  show StableHlo.after (hostOps0 (F := Ideal)) (W0 m ρ c) (Proc.devRef .tc main_v37) (ix2 (0 : Fin 1) j) = _
  rw [pre_wrad]; exact slice257_last _ j

theorem ent_be1 (j : Fin 128) : V1 m ρ c main_v38 (ix2 (0 : Fin 1) j) = (m ((c.tc : Thread nD τ).loc main_arg4)) (ix1 j) := by
  show StableHlo.after (hostOps0 (F := Ideal)) (W0 m ρ c) (Proc.devRef .tc main_v38) (ix2 (0 : Fin 1) j) = _
  rw [pre_be1]; exact row128 _ j

theorem ent_we2 : V1 m ρ c main_arg5 = (m ((c.tc : Thread nD τ).loc main_arg5)) := by
  show StableHlo.after (hostOps0 (F := Ideal)) (W0 m ρ c) (Proc.devRef .tc main_arg5) = _
  rw [pre_keep_arg5]

theorem ent_be2 (j : Fin 128) : V1 m ρ c main_v39 (ix2 (0 : Fin 1) j) = (m ((c.tc : Thread nD τ).loc main_arg6)) (ix1 j) := by
  show StableHlo.after (hostOps0 (F := Ideal)) (W0 m ρ c) (Proc.devRef .tc main_v39) (ix2 (0 : Fin 1) j) = _
  rw [pre_be2]; exact row128 _ j

theorem ent_wc1 : V1 m ρ c main_arg11 = (m ((c.tc : Thread nD τ).loc main_arg11)) := by
  show StableHlo.after (hostOps0 (F := Ideal)) (W0 m ρ c) (Proc.devRef .tc main_arg11) = _
  rw [pre_keep_arg11]

theorem ent_bc1 (j : Fin 128) : V1 m ρ c main_v40 (ix2 (0 : Fin 1) j) = (m ((c.tc : Thread nD τ).loc main_arg12)) (ix1 j) := by
  show StableHlo.after (hostOps0 (F := Ideal)) (W0 m ρ c) (Proc.devRef .tc main_v40) (ix2 (0 : Fin 1) j) = _
  rw [pre_bc1]; exact row128 _ j

theorem ent_wc2 : V1 m ρ c main_arg13 = (m ((c.tc : Thread nD τ).loc main_arg13)) := by
  show StableHlo.after (hostOps0 (F := Ideal)) (W0 m ρ c) (Proc.devRef .tc main_arg13) = _
  rw [pre_keep_arg13]

/-- The edge-feature array the edge region leaves is the reference's edge-feature stage. -/
theorem edge_arr : (dat0 (F := Ideal) (V1 m ρ) c).arrAt 12 cfg0.N
    = Cert.ReferenceIdeal.Read.val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨e, j, rfl⟩ : ∃ (e : Fin 640000) (j : Fin 128), i = ix2 e j := ⟨i 0, i 1, eq_ix2 i⟩
  refine (edge_feat_arr (V1 m ρ) c e j).trans (Eq.trans ?_ (ref_edge_feat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) e j).symm)
  exact edgeFeat_congr j (funext fun k => congrFun (ent_hsrc m ρ c) _) (funext fun k => congrFun (ent_hdst m ρ c) _)
    (funext fun k => congrFun (ent_cdiff m ρ c) _)
    (funext fun j => funext fun k => ent_wsrc m ρ c j k) (funext fun j => funext fun k => ent_wdst m ρ c j k)
    (funext fun j => ent_wrad m ρ c j) (funext fun j => ent_be1 m ρ c j)
    (funext fun j => funext fun k => congrFun (ent_we2 m ρ c) _) (funext fun j => ent_be2 m ρ c j)

/-- The coordinate-update array the edge region leaves is the reference's coordinate-update stage. -/
theorem trans_arr_eq : (dat0 (F := Ideal) (V1 m ρ) c).arrAt 13 cfg0.N
    = Cert.ReferenceIdeal.Read.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) := by
  funext i
  obtain ⟨e, b, rfl⟩ : ∃ (e : Fin 640000) (b : Fin 3), i = ix2 e b := ⟨i 0, i 1, eq_ix2 i⟩
  refine (trans_arr (V1 m ρ) c e b).trans (Eq.trans ?_ (ref_trans (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) e b).symm)
  exact trans_congr b (funext fun k => congrFun (ent_hsrc m ρ c) _) (funext fun k => congrFun (ent_hdst m ρ c) _)
    (funext fun k => congrFun (ent_cdiff m ρ c) _)
    (funext fun j => funext fun k => ent_wsrc m ρ c j k) (funext fun j => funext fun k => ent_wdst m ρ c j k)
    (funext fun j => ent_wrad m ρ c j) (funext fun j => ent_be1 m ρ c j)
    (funext fun j => funext fun k => congrFun (ent_we2 m ρ c) _) (funext fun j => ent_be2 m ρ c j)
    (funext fun j => funext fun k => congrFun (ent_wc1 m ρ c) _) (funext fun j => ent_bc1 m ρ c j)
    (funext fun k => congrFun (ent_wc2 m ρ c) _)

end Edge

/-! ## Between the regions, and the node region -/

section Node

variable (m : (ℓ : Loc nD τ sig) → Buf (Elt Ideal) ℓ) (ρ : Dev nD → PrngReg) (c : Dev nD)

/-- A buffer the first stretch and the edge region leave alone holds its launch contents at the edge region's exit. -/
theorem exit_arg0 : W2 m ρ c (Proc.devRef .tc main_arg0) = (m ((c.tc : Thread nD τ).loc main_arg0)) := by
  rw [W2_of_ne m ρ c main_arg0 (by decide)]
  show StableHlo.after (hostOps0 (F := Ideal)) (W0 m ρ c) (Proc.devRef .tc main_arg0) = _
  rw [pre_keep_arg0]
theorem exit_arg1 : W2 m ρ c (Proc.devRef .tc main_arg1) = (m ((c.tc : Thread nD τ).loc main_arg1)) := by
  rw [W2_of_ne m ρ c main_arg1 (by decide)]
  show StableHlo.after (hostOps0 (F := Ideal)) (W0 m ρ c) (Proc.devRef .tc main_arg1) = _
  rw [pre_keep_arg1]
theorem exit_arg7 : W2 m ρ c (Proc.devRef .tc main_arg7) = (m ((c.tc : Thread nD τ).loc main_arg7)) := by
  rw [W2_of_ne m ρ c main_arg7 (by decide)]
  show StableHlo.after (hostOps0 (F := Ideal)) (W0 m ρ c) (Proc.devRef .tc main_arg7) = _
  rw [pre_keep_arg7]
theorem exit_arg9 : W2 m ρ c (Proc.devRef .tc main_arg9) = (m ((c.tc : Thread nD τ).loc main_arg9)) := by
  rw [W2_of_ne m ρ c main_arg9 (by decide)]
  show StableHlo.after (hostOps0 (F := Ideal)) (W0 m ρ c) (Proc.devRef .tc main_arg9) = _
  rw [pre_keep_arg9]

/-- The source index column at the edge region's exit is the reference's. -/
theorem exit_src : W2 m ρ c (Proc.devRef .tc main_v1) = Cert.ReferenceIdeal.Read.val_main_v1 (F := Ideal) (m ((c.tc : Thread nD τ).loc main_arg2)) := by
  rw [W2_of_ne m ρ c main_v1 (by decide)]
  show StableHlo.after (hostOps0 (F := Ideal)) (W0 m ρ c) (Proc.devRef .tc main_v1) = _
  rw [pre_src]

theorem exit_bn1 (j : Fin 128) : W2 m ρ c (Proc.devRef .tc main_v41) (ix2 (0 : Fin 1) j) = (m ((c.tc : Thread nD τ).loc main_arg8)) (ix1 j) := by
  rw [W2_of_ne m ρ c main_v41 (by decide)]
  show StableHlo.after (hostOps0 (F := Ideal)) (W0 m ρ c) (Proc.devRef .tc main_v41) (ix2 (0 : Fin 1) j) = _
  rw [pre_bn1]; exact row128 _ j

theorem exit_bn2 (j : Fin 128) : W2 m ρ c (Proc.devRef .tc main_v42) (ix2 (0 : Fin 1) j) = (m ((c.tc : Thread nD τ).loc main_arg10)) (ix1 j) := by
  rw [W2_of_ne m ρ c main_v42 (by decide)]
  show StableHlo.after (hostOps0 (F := Ideal)) (W0 m ρ c) (Proc.devRef .tc main_v42) (ix2 (0 : Fin 1) j) = _
  rw [pre_bn2]; exact row128 _ j

/-- The edge region's two outputs at its exit. -/
theorem exit_efeat : W2 m ρ c (Proc.devRef .tc main_v43_0)
    = Cert.ReferenceIdeal.Read.val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W2_arr m ρ c 12).trans (edge_arr m ρ c)
theorem exit_trans : W2 m ρ c (Proc.devRef .tc main_v43_1)
    = Cert.ReferenceIdeal.Read.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) :=
  (W2_arr m ρ c 13).trans (trans_arr_eq m ρ c)

/-- The aggregated edge features the node region reads are the reference's scatter-add stage: the same scatter-add of
    equal arrays from zero at the same indices (a change of float format is the identity). -/
theorem ent_agg : V3 m ρ c main_v47 = Cert.ReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after (hostOps1 (F := Ideal)) (W2 m ρ c) (Proc.devRef .tc main_v47) = _
  rw [mid_agg, exit_src m ρ c, exit_efeat m ρ c]
  rfl

theorem ent_h : V3 m ρ c main_arg0 = (m ((c.tc : Thread nD τ).loc main_arg0)) := by
  show StableHlo.after (hostOps1 (F := Ideal)) (W2 m ρ c) (Proc.devRef .tc main_arg0) = _
  rw [mid_keep_arg0, exit_arg0 m ρ c]

theorem ent_wh (j k : Fin 128) : V3 m ρ c main_v52 (ix2 j k) = (m ((c.tc : Thread nD τ).loc main_arg7)) (ix2 j ⟨k.val, by omega⟩) := by
  show StableHlo.after (hostOps1 (F := Ideal)) (W2 m ρ c) (Proc.devRef .tc main_v52) (ix2 j k) = _
  rw [mid_wh, exit_arg7 m ρ c]; exact slice256_lo _ j k

theorem ent_wa (j k : Fin 128) : V3 m ρ c main_v53 (ix2 j k) = (m ((c.tc : Thread nD τ).loc main_arg7)) (ix2 j ⟨128 + k.val, by omega⟩) := by
  show StableHlo.after (hostOps1 (F := Ideal)) (W2 m ρ c) (Proc.devRef .tc main_v53) (ix2 j k) = _
  rw [mid_wa, exit_arg7 m ρ c]; exact slice256_hi _ j k

theorem ent_bn1 (j : Fin 128) : V3 m ρ c main_v41 (ix2 (0 : Fin 1) j) = (m ((c.tc : Thread nD τ).loc main_arg8)) (ix1 j) := by
  show StableHlo.after (hostOps1 (F := Ideal)) (W2 m ρ c) (Proc.devRef .tc main_v41) (ix2 (0 : Fin 1) j) = _
  rw [mid_keep_v41]; exact exit_bn1 m ρ c j

theorem ent_wn2 : V3 m ρ c main_arg9 = (m ((c.tc : Thread nD τ).loc main_arg9)) := by
  show StableHlo.after (hostOps1 (F := Ideal)) (W2 m ρ c) (Proc.devRef .tc main_arg9) = _
  rw [mid_keep_arg9, exit_arg9 m ρ c]

theorem ent_bn2 (j : Fin 128) : V3 m ρ c main_v42 (ix2 (0 : Fin 1) j) = (m ((c.tc : Thread nD τ).loc main_arg10)) (ix1 j) := by
  show StableHlo.after (hostOps1 (F := Ideal)) (W2 m ρ c) (Proc.devRef .tc main_v42) (ix2 (0 : Fin 1) j) = _
  rw [mid_keep_v42]; exact exit_bn2 m ρ c j

/-- The array the node region leaves is the reference's result. -/
theorem node_arr_eq : (dat1 (F := Ideal) (V3 m ρ) c).arrAt 7 cfg1.N
    = Cert.ReferenceIdeal.Read.val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  funext i
  obtain ⟨n, j, rfl⟩ : ∃ (n : Fin 20000) (j : Fin 128), i = ix2 n j := ⟨i 0, i 1, eq_ix2 i⟩
  refine (node_arr (V3 m ρ) c n j).trans (Eq.trans ?_ (ref_node (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) n j).symm)
  exact nodeOut_congr j (funext fun k => congrFun (ent_h m ρ c) _) (funext fun k => congrFun (ent_agg m ρ c) _)
    (funext fun j => funext fun k => ent_wh m ρ c j k) (funext fun j => funext fun k => ent_wa m ρ c j k)
    (funext fun j => ent_bn1 m ρ c j) (funext fun j => funext fun k => congrFun (ent_wn2 m ρ c) _)
    (funext fun j => ent_bn2 m ρ c j)

/-! ## The two results at the last boundary -/

/-- The node output at the last boundary is the reference's first result, of the launch contents of the arguments. -/
theorem out_h : W4 m ρ c (Proc.devRef .tc main_v54)
    = Cert.ReferenceIdeal.Read.val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (W4_arr m ρ c 7).trans (node_arr_eq m ρ c)

/-- The updated coordinates at the last boundary are the reference's second result: the node region leaves them alone,
    and the second stretch adds to the coordinates the scatter-add of the edge region's coordinate updates. -/
theorem out_coord : W4 m ρ c (Proc.devRef .tc main_v51)
    = Cert.ReferenceIdeal.Read.val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) := by
  rw [W4_of_ne m ρ c main_v51 (by decide)]
  show StableHlo.after (hostOps1 (F := Ideal)) (W2 m ρ c) (Proc.devRef .tc main_v51) = _
  rw [mid_coord, exit_arg1 m ρ c, exit_src m ρ c, exit_trans m ρ c]
  rfl

end Node

end Cert.KernelIdeal.Join

end
-- ==== Proof.lean ====
/-
  One layer of an E(n)-equivariant graph network on 20000 nodes and 640000 edges: a kernel program of two pipelined
  regions (the edge model with the coordinate model, tiled over 160 blocks of 4000 edges; the node model, tiled over 5
  blocks of 4000 nodes) among host gathers and scatter-adds, against a plain host program.

  On the extended reals the two programs compute the same function of the arguments, entry by entry:
  * per edge, the reference contracts the concatenation (source features, target features, squared distance) with the
    first edge weight in ONE sum over 257 terms; the kernel contracts the two feature parts with the two 128-column
    blocks of that weight and adds the squared distance times the last column — the same sum regrouped, which needs
    only that addition is commutative and associative, so no finiteness of the inputs is used; the same for the node
    model's contraction over the concatenation (features, aggregated edge features), 256 = 128 + 128 terms;
  * the kernel's logistic function is the reference's 1 / (1 + e⁻ˣ), by definition on the extended reals;
  * a change of float format is the identity; a row sum kept as a column is the matrix–vector product it stands for;
  * both programs gather at the same indices and scatter-add equal arrays at the same indices, so the gathers and the
    scatter-adds are never opened.
  The row-by-row specification both sides meet is Proof/Spec.lean; the kernel's regions are read off its frame run block
  by block (Proof/KEdge.lean, Proof/KNode.lean over Proof/KEdgePay.lean, Proof/KNodePay.lean), its host stretches in
  Proof/KHost.lean, its run with the results named in Proof/KRun.lean; the reference's stages at an index in
  Proof/RefEdge.lean and Proof/RefNode.lean; Proof/KJoin.lean puts the boundary contents together.
  The kernel's idealization rewrote no operation, so the third claim is trivial.
-/
import proofs.«137929_j9320079032381_2_alg».proof.Defs
import proofs.«137929_j9320079032381_2_alg».proof.Proof.Gen.Kernel
import proofs.«137929_j9320079032381_2_alg».proof.Proof.Gen.KernelIdeal
import proofs.«137929_j9320079032381_2_alg».proof.Proof.Gen.ReferenceIdeal
import proofs.«137929_j9320079032381_2_alg».proof.Proof.Gen.ReferenceIdeal.Run
import proofs.«137929_j9320079032381_2_alg».proof.Proof.Gen.ReferenceIdeal.Read
import proofs.«137929_j9320079032381_2_alg».proof.Proof.Gen.Pre_finite_inputs
import proofs.«137929_j9320079032381_2_alg».proof.Proof.KernelFrameP
import proofs.«137929_j9320079032381_2_alg».proof.Proof.KernelIdealFrameP
import proofs.«137929_j9320079032381_2_alg».proof.Proof.KRun
import proofs.«137929_j9320079032381_2_alg».proof.Proof.KJoin
import Idealize.ShloMosaic.Adequacy
import Idealize.ShloMosaic.Init

noncomputable section

namespace Cert.Proof.Claims

open Idealize.ShloMosaic Idealize.ShloMosaic.TcCoe Idealize.SL.Sem

/-- The word-level kernel program runs and leaves its arguments as launched. -/
theorem frame_k : Cert.frame_Kernel := fun m ρ _ => Cert.Kernel.GenP.frame m ρ

/-- The idealized kernel program runs and leaves its arguments as launched. -/
theorem frame_ki : Cert.frame_KernelIdeal := fun m ρ _ => Cert.KernelIdeal.GenP.frame m ρ

/-- The reference runs and leaves its arguments as launched: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the reference's two stages of the kernel's launch
    contents: the kernel by its run and the boundary contents, the reference by its run and the agreement. -/
theorem algebraic : Cert.algebraic_KernelIdeal_ReferenceIdeal := by
  intro m ρ m' ρ' _ hagree
  refine ⟨fun c => Cert.ReferenceIdeal.Read.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Join.out_h m ρ c), (h c).2.1.trans (Cert.KernelIdeal.Join.out_coord m ρ c), (h c).2.2⟩)
      (Cert.KernelIdeal.RunValue.run_vals (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13⟩ := hagree c
      rw [Cert.ReferenceIdeal.Read.val_main_v102_eq, h0, h1, h2, h3, h4, h5, h6, h7, h8, h9, h10]
    · obtain ⟨h0, h1, h2, h3, h4, h5, h6, h7, h8, h9, h10, h11, h12, h13⟩ := hagree c
      rw [Cert.ReferenceIdeal.Read.val_main_v80_eq, h0, h1, h2, h3, h4, h5, h6, h11, h12, h13]

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
